-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v58)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v58) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v94) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x16 : Shape := ⟨2, ![100000, 16]⟩
abbrev S2x3200000 : Shape := ⟨2, ![2, 3200000]⟩
abbrev S16x16 : Shape := ⟨2, ![16, 16]⟩
abbrev S16 : Shape := ⟨1, ![16]⟩
abbrev S16x1 : Shape := ⟨2, ![16, 1]⟩
abbrev S1 : Shape := ⟨1, ![1]⟩
abbrev S_ : Shape := ⟨0, ![]⟩

class Facts : Prop where
  bcast_S_S100000x16 : S_.BroadcastsInDim S100000x16 (![] : Fin 0 → Fin S100000x16.rank)
  reducesTo_S100000x16_S_d0_1 : S100000x16.ReducesTo [0, 1] S_
  h_S_ : 0 < S_.numel
  bcast_S_S16x16 : S_.BroadcastsInDim S16x16 (![] : Fin 0 → Fin S16x16.rank)
  reducesTo_S16x16_S_d0_1 : S16x16.ReducesTo [0, 1] S_
  bcast_S_S16 : S_.BroadcastsInDim S16 (![] : Fin 0 → Fin S16.rank)
  reducesTo_S16_S_d0 : S16.ReducesTo [0] S_
  bcast_S_S16x1 : S_.BroadcastsInDim S16x1 (![] : Fin 0 → Fin S16x1.rank)
  reducesTo_S16x1_S_d0_1 : S16x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg5 : FVec F S1 .f32) (main_v13 : IVec S_ 1) (main_v16 : IVec S16x1 1) : IVec S_ 1 :=
  let main_c_5 : IVec S_ 1 := constantI S_ 1 1#1
  let main_v17 : IVec S_ 1 := (fun x v => Host.reduce IntOp.andi x v reducesTo_S16x1_S_d0_1 h_S_) main_v16 main_c_5
  let main_v18 : IVec S_ 1 := andi main_v13 main_v17
  let main_v19 : FVec F S1 .f32 := Host.absf main_arg5
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  main_v23

def fn {F : FTy → Type} [FloatOps F] (main_arg0 : FVec F S100000x16 .f32) (main_arg1 : IVec S2x3200000 32) (main_arg2 : FVec F S16x16 .f32) (main_arg3 : FVec F S16 .f32) (main_arg4 : FVec F S16x1 .f32) (main_arg5 : FVec F S1 .f32) : IVec S_ 1 :=
  let main_v0 : FVec F S100000x16 .f32 := Host.absf main_arg0
  let main_cst : FVec F S_ .f32 := constant S_ .f32 0x7F800000#32
  let main_v1 : FVec F S100000x16 .f32 := broadcastInDim S100000x16 ![] bcast_S_S100000x16 main_cst
  let main_v2 : IVec S100000x16 1 := cmpf .olt main_v0 main_v1
  let main_c : IVec S_ 1 := constantI S_ 1 1#1
  let main_v3 : IVec S_ 1 := (fun x v => Host.reduce IntOp.andi x v reducesTo_S100000x16_S_d0_1 h_S_) main_v2 main_c
  let main_v4 : FVec F S16x16 .f32 := Host.absf main_arg2
  let main_cst_0 : FVec F S_ .f32 := constant S_ .f32 0x7F800000#32
  let main_v5 : FVec F S16x16 .f32 := broadcastInDim S16x16 ![] bcast_S_S16x16 main_cst_0
  let main_v6 : IVec S16x16 1 := cmpf .olt main_v4 main_v5
  let main_c_1 : IVec S_ 1 := constantI S_ 1 1#1
  let main_v7 : IVec S_ 1 := (fun x v => Host.reduce IntOp.andi x v reducesTo_S16x16_S_d0_1 h_S_) main_v6 main_c_1
  let main_v8 : IVec S_ 1 := andi main_v3 main_v7
  let main_v9 : FVec F S16 .f32 := Host.absf main_arg3
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16x1 .f32 := Host.absf main_arg4
  let main_cst_4 : FVec F S_ .f32 := constant S_ .f32 0x7F800000#32
  let main_v15 : FVec F S16x1 .f32 := broadcastInDim S16x1 ![] bcast_S_S16x1 main_cst_4
  let main_v16 : IVec S16x1 1 := cmpf .olt main_v14 main_v15
  fn_part1 (F := F) main_arg5 main_v13 main_v16
-- ==== Kernel.lean ====
abbrev S100000x16 : Shape := ⟨2, ![100000, 16]⟩
abbrev S2x3200000 : Shape := ⟨2, ![2, 3200000]⟩
abbrev S16x16 : Shape := ⟨2, ![16, 16]⟩
abbrev S16 : Shape := ⟨1, ![16]⟩
abbrev S16x1 : Shape := ⟨2, ![16, 1]⟩
abbrev S1 : Shape := ⟨1, ![1]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S10000x16 : Shape := ⟨2, ![10000, 16]⟩
abbrev S3300000x16 : Shape := ⟨2, ![3300000, 16]⟩
abbrev S10000x1 : Shape := ⟨2, ![10000, 1]⟩
abbrev S1x16 : Shape := ⟨2, ![1, 16]⟩
abbrev S100000x1 : Shape := ⟨2, ![100000, 1]⟩
abbrev S1x1 : Shape := ⟨2, ![1, 1]⟩

abbrev nBuf : Space → Nat
  | .hbm => 81
  | .vmem => 32
  | .smem => 0
  | _ => 0

abbrev bufTy : (tb : Table) → Fin (tcTables nBuf tb) → BufTy
  | .hbm, ⟨0, _⟩ => ⟨S100000x16, .f32⟩
  | .hbm, ⟨1, _⟩ => ⟨S2x3200000, .i32⟩
  | .hbm, ⟨2, _⟩ => ⟨S16x16, .f32⟩
  | .hbm, ⟨3, _⟩ => ⟨S16, .f32⟩
  | .hbm, ⟨4, _⟩ => ⟨S16x1, .f32⟩
  | .hbm, ⟨5, _⟩ => ⟨S1, .f32⟩
  | .hbm, ⟨6, _⟩ => ⟨S100000, .i32⟩
  | .hbm, ⟨7, _⟩ => ⟨S1x3200000, .i32⟩
  | .hbm, ⟨8, _⟩ => ⟨S3200000, .i32⟩
  | .hbm, ⟨9, _⟩ => ⟨S3300000, .i32⟩
  | .hbm, ⟨10, _⟩ => ⟨S1x3200000, .i32⟩
  | .hbm, ⟨11, _⟩ => ⟨S3200000, .i32⟩
  | .hbm, ⟨12, _⟩ => ⟨S3300000, .i32⟩
  | .hbm, ⟨13, _⟩ => ⟨S_, .f32⟩
  | .hbm, ⟨14, _⟩ => ⟨S3300000, .f32⟩
  | .hbm, ⟨15, _⟩ => ⟨S_, .f32⟩
  | .hbm, ⟨16, _⟩ => ⟨S100000, .f32⟩
  | .hbm, ⟨17, _⟩ => ⟨S3300000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S3300000, .i32⟩
  | .hbm, ⟨29, _⟩ => ⟨S3300000, .i1⟩
  | .hbm, ⟨30, _⟩ => ⟨S_, .i32⟩
  | .hbm, ⟨31, _⟩ => ⟨S3300000, .i32⟩
  | .hbm, ⟨32, _⟩ => ⟨S3300000, .i32⟩
  | .hbm, ⟨33, _⟩ => ⟨S3300000, .i32⟩
  | .hbm, ⟨34, _⟩ => ⟨S3300000x1, .i32⟩
  | .hbm, ⟨35, _⟩ => ⟨S3300000, .f32⟩
  | .hbm, ⟨36, _⟩ => ⟨S_, .i32⟩
  | .hbm, ⟨37, _⟩ => ⟨S3300000, .i32⟩
  | .hbm, ⟨38, _⟩ => ⟨S3300000, .i1⟩
  | .hbm, ⟨39, _⟩ => ⟨S_, .i32⟩
  | .hbm, ⟨40, _⟩ => ⟨S3300000, .i32⟩
  | .hbm, ⟨41, _⟩ => ⟨S3300000, .i32⟩
  | .hbm, ⟨42, _⟩ => ⟨S3300000, .i32⟩
  | .hbm, ⟨43, _⟩ => ⟨S3300000x1, .i32⟩
  | .hbm, ⟨44, _⟩ => ⟨S3300000, .f32⟩
  | .hbm, ⟨45, _⟩ => ⟨S3300000, .f32⟩
  | .hbm, ⟨46, _⟩ => ⟨S100000x16, .f32⟩
  | .hbm, ⟨47, _⟩ => ⟨S_, .i32⟩
  | .hbm, ⟨48, _⟩ => ⟨S3300000, .i32⟩
  | .hbm, ⟨49, _⟩ => ⟨S3300000, .i1⟩
  | .hbm, ⟨50, _⟩ => ⟨S_, .i32⟩
  | .hbm, ⟨51, _⟩ => ⟨S3300000, .i32⟩
  | .hbm, ⟨52, _⟩ => ⟨S3300000, .i32⟩
  | .hbm, ⟨53, _⟩ => ⟨S3300000, .i32⟩
  | .hbm, ⟨54, _⟩ => ⟨S3300000x1, .i32⟩
  | .hbm, ⟨55, _⟩ => ⟨S3300000x16, .f32⟩
  | .hbm, ⟨56, _⟩ => ⟨S3300000x1, .f32⟩
  | .hbm, ⟨57, _⟩ => ⟨S3300000x16, .f32⟩
  | .hbm, ⟨58, _⟩ => ⟨S_, .f32⟩
  | .hbm, ⟨59, _⟩ => ⟨S100000x16, .f32⟩
  | .hbm, ⟨60, _⟩ => ⟨S3300000x1, .i32⟩
  | .hbm, ⟨61, _⟩ => ⟨S100000x16, .f32⟩
  | .hbm, ⟨62, _⟩ => ⟨S100000x16, .f32⟩
  | .hbm, ⟨63, _⟩ => ⟨S100000x1, .f32⟩
  | .hbm, ⟨64, _⟩ => ⟨S_, .i32⟩
  | .hbm, ⟨65, _⟩ => ⟨S3300000, .i32⟩
  | .hbm, ⟨66, _⟩ => ⟨S3300000, .i1⟩
  | .hbm, ⟨67, _⟩ => ⟨S_, .i32⟩
  | .hbm, ⟨68, _⟩ => ⟨S3300000, .i32⟩
  | .hbm, ⟨69, _⟩ => ⟨S3300000, .i32⟩
  | .hbm, ⟨70, _⟩ => ⟨S3300000, .i32⟩
  | .hbm, ⟨71, _⟩ => ⟨S3300000x1, .i32⟩
  | .hbm, ⟨72, _⟩ => ⟨S3300000x1, .f32⟩
  | .hbm, ⟨73, _⟩ => ⟨S3300000x1, .f32⟩
  | .hbm, ⟨74, _⟩ => ⟨S3300000x1, .f32⟩
  | .hbm, ⟨75, _⟩ => ⟨S_, .f32⟩
  | .hbm, ⟨76, _⟩ => ⟨S100000x1, .f32⟩
  | .hbm, ⟨77, _⟩ => ⟨S3300000x1, .i32⟩
  | .hbm, ⟨78, _⟩ => ⟨S100000x1, .f32⟩
  | .hbm, ⟨79, _⟩ => ⟨S100000x1, .f32⟩
  | .hbm, ⟨80, _⟩ => ⟨S100000, .f32⟩
  | .local _ .vmem, ⟨0, _⟩ => ⟨S10000x16, .f32⟩
  | .local _ .vmem, ⟨1, _⟩ => ⟨S10000x16, .f32⟩
  | .local _ .vmem, ⟨2, _⟩ => ⟨S16x16, .f32⟩
  | .local _ .vmem, ⟨3, _⟩ => ⟨S10000x16, .f32⟩
  | .local _ .vmem, ⟨4, _⟩ => ⟨S10000x16, .f32⟩
  | .local _ .vmem, ⟨5, _⟩ => ⟨S10000x16, .f32⟩
  | .local _ .vmem, ⟨6, _⟩ => ⟨S10000x16, .f32⟩
  | .local _ .vmem, ⟨7, _⟩ => ⟨S10000x1, .f32⟩
  | .local _ .vmem, ⟨8, _⟩ => ⟨S10000x1, .f32⟩
  | .local _ .vmem, ⟨9, _⟩ => ⟨S10000x16, .f32⟩
  | .local _ .vmem, ⟨10, _⟩ => ⟨S10000x16, .f32⟩
  | .local _ .vmem, ⟨11, _⟩ => ⟨S10000x16, .f32⟩
  | .local _ .vmem, ⟨12, _⟩ => ⟨S10000x16, .f32⟩
  | .local _ .vmem, ⟨13, _⟩ => ⟨S16, .f32⟩
  | .local _ .vmem, ⟨14, _⟩ => ⟨S10000x16, .f32⟩
  | .local _ .vmem, ⟨15, _⟩ => ⟨S10000x16, .f32⟩
  | .local _ .vmem, ⟨16, _⟩ => ⟨S10000x16, .f32⟩
  | .local _ .vmem, ⟨17, _⟩ => ⟨S10000x16, .f32⟩
  | .local _ .vmem, ⟨18, _⟩ => ⟨S16x1, .f32⟩
  | .local _ .vmem, ⟨19, _⟩ => ⟨S10000x1, .f32⟩
  | .local _ .vmem, ⟨20, _⟩ => ⟨S10000x1, .f32⟩
  | .local _ .vmem, ⟨21, _⟩ => ⟨S10000x1, .f32⟩
  | .local _ .vmem, ⟨22, _⟩ => ⟨S10000x1, .f32⟩
  | .local _ .vmem, ⟨23, _⟩ => ⟨S10000x1, .f32⟩
  | .local _ .vmem, ⟨24, _⟩ => ⟨S10000x1, .f32⟩
  | .local _ .vmem, ⟨25, _⟩ => ⟨S10000x1, .f32⟩
  | .local _ .vmem, ⟨26, _⟩ => ⟨S10000x1, .f32⟩
  | .local _ .vmem, ⟨27, _⟩ => ⟨S10000x1, .f32⟩
  | .local _ .vmem, ⟨28, _⟩ => ⟨S10000x1, .f32⟩
  | .local _ .vmem, ⟨29, _⟩ => ⟨S1, .f32⟩
  | .local _ .vmem, ⟨30, _⟩ => ⟨S10000x1, .f32⟩
  | .local _ .vmem, ⟨31, _⟩ => ⟨S10000x1, .f32⟩
  | _, _ => ⟨S100000x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_8 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_c_9 : Ref sig .tc := ⟨.hbm, 64, rfl⟩
abbrev main_v45 : Ref sig .tc := ⟨.hbm, 65, rfl⟩
abbrev main_v46 : Ref sig .tc := ⟨.hbm, 66, rfl⟩
abbrev main_c_10 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_cst_11 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc3_stg0_0 : Ref sig .tc := ⟨.vmem, 16, rfl⟩
abbrev cc3_stg0_1 : Ref sig .tc := ⟨.vmem, 17, rfl⟩
abbrev cc3_stg1_0 : Ref sig .tc := ⟨.vmem, 18, rfl⟩
abbrev cc3_stg2_0 : Ref sig .tc := ⟨.vmem, 19, rfl⟩
abbrev cc3_stg2_1 : Ref sig .tc := ⟨.vmem, 20, rfl⟩
abbrev cc4_stg0_0 : Ref sig .tc := ⟨.vmem, 21, rfl⟩
abbrev cc4_stg0_1 : Ref sig .tc := ⟨.vmem, 22, rfl⟩
abbrev cc4_stg1_0 : Ref sig .tc := ⟨.vmem, 23, rfl⟩
abbrev cc4_stg1_1 : Ref sig .tc := ⟨.vmem, 24, rfl⟩
abbrev cc4_stg2_0 : Ref sig .tc := ⟨.vmem, 25, rfl⟩
abbrev cc4_stg2_1 : Ref sig .tc := ⟨.vmem, 26, rfl⟩
abbrev cc5_stg0_0 : Ref sig .tc := ⟨.vmem, 27, rfl⟩
abbrev cc5_stg0_1 : Ref sig .tc := ⟨.vmem, 28, rfl⟩
abbrev cc5_stg1_0 : Ref sig .tc := ⟨.vmem, 29, rfl⟩
abbrev cc5_stg2_0 : Ref sig .tc := ⟨.vmem, 30, rfl⟩
abbrev cc5_stg2_1 : Ref sig .tc := ⟨.vmem, 31, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15
abbrev cc3_sem0_0 : DmaSem sig := 16
abbrev cc3_sem0_1 : DmaSem sig := 17
abbrev cc3_sem1_0 : DmaSem sig := 18
abbrev cc3_sem2_0 : DmaSem sig := 19
abbrev cc3_sem2_1 : DmaSem sig := 20
abbrev cc4_sem0_0 : DmaSem sig := 21
abbrev cc4_sem0_1 : DmaSem sig := 22
abbrev cc4_sem1_0 : DmaSem sig := 23
abbrev cc4_sem1_1 : DmaSem sig := 24
abbrev cc4_sem2_0 : DmaSem sig := 25
abbrev cc4_sem2_1 : DmaSem sig := 26
abbrev cc5_sem0_0 : DmaSem sig := 27
abbrev cc5_sem0_1 : DmaSem sig := 28
abbrev cc5_sem1_0 : DmaSem sig := 29
abbrev cc5_sem2_0 : DmaSem sig := 30
abbrev cc5_sem2_1 : DmaSem sig := 31

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![330], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S10000x16 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x16 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S16 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x16 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x16 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S16x1 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S10000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![330], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x1 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S10000x1 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S10000x1 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S10000x1 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S10000x1 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  inb_S10000x16_S10000x16_0_0 : ∀ a, (![0, 0] : Fin 2 → Nat) a + S10000x16.size a ≤ S10000x16.size a
  h_S10000x16 : 0 < S10000x16.numel
  bitsLt_bf16_f32 : FTy.bits .bf16 < FTy.bits .f32
  inb_S16x16_S16x16_0_0 : ∀ a, (![0, 0] : Fin 2 → Nat) a + S16x16.size a ≤ S16x16.size a
  h_S16x16 : 0 < S16x16.numel
  shapeCasts_S3300000_S3300000x1 : S3300000.ShapeCasts S3300000x1
  shapeCasts_S10000x16_S10000x16 : S10000x16.ShapeCasts S10000x16
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  broadcasts_S10000x1_S10000x16 : S10000x1.Broadcasts S10000x16
  bcast_S_S100000x16 : S_.BroadcastsInDim S100000x16 (![] : Fin 0 → Fin S100000x16.rank)
  inb_S16_S16_0 : ∀ a, (![0] : Fin 1 → Nat) a + S16.size a ≤ S16.size a
  h_S16 : 0 < S16.numel
  shapeCasts_S16_S1x16 : S16.ShapeCasts S1x16
  broadcasts_S1x16_S10000x16 : S1x16.Broadcasts S10000x16
  inb_S16x1_S16x1_0_0 : ∀ a, (![0, 0] : Fin 2 → Nat) a + S16x1.size a ≤ S16x1.size a
  h_S16x1 : 0 < S16x1.numel
  bcast_S_S100000x1 : S_.BroadcastsInDim S100000x1 (![] : Fin 0 → Fin S100000x1.rank)
  inb_S1_S1_0 : ∀ a, (![0] : Fin 1 → Nat) a + S1.size a ≤ S1.size a
  h_S1 : 0 < S1.numel
  shapeCasts_S1_S1x1 : S1.ShapeCasts S1x1
  broadcasts_S1x1_S10000x1 : S1x1.Broadcasts S10000x1
  shapeCasts_S100000x1_S100000 : S100000x1.ShapeCasts S100000
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S10000x16_S16x16_S10000x16_1_0_0_1_n_n_wf : DotDims.WF S10000x16 S16x16 S10000x16 [1] [0] [0] [1] [] []
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S10000x16_S16x1_S10000x1_1_0_0_1_n_n_wf : DotDims.WF S10000x16 S16x1 S10000x1 [1] [0] [0] [1] [] []
  gather_S100000x1_S3300000x1_S3300000x1_1_0_n_n_0_1_11_wf : GatherDims.WF S100000x1 S3300000x1 S3300000x1 [1] [0] [] [0] [] 1 ![1, 1]
  scatter_S100000x1_S3300000x1_S3300000x1_1_0_0_1_wf : ScatterDims.WF S100000x1 S3300000x1 S3300000x1 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x16.size a ≤ S100000x16.size a
  hwx0_0 : ∀ i : grid0.Coords, EltTy.bits .f32 = 32 ∨ (Rect.block (s := S100000x16) S10000x16.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16x16.size a ≤ S16x16.size a
  hwx0_1 : ∀ i : grid0.Coords, EltTy.bits .f32 = 32 ∨ (Rect.block (s := S16x16) S16x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x16.size a ≤ S100000x16.size a
  hwx0_2 : ∀ i : grid0.Coords, EltTy.bits .f32 = 32 ∨ (Rect.block (s := S100000x16) S10000x16.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x16.size a ≤ S3300000x16.size a
  hwx1_0 : ∀ i : grid1.Coords, EltTy.bits .f32 = 32 ∨ (Rect.block (s := S3300000x16) S10000x16.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x1.size a ≤ S3300000x1.size a
  hwx1_1 : ∀ i : grid1.Coords, EltTy.bits .f32 = 32 ∨ (Rect.block (s := S3300000x1) S10000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x16.size a ≤ S3300000x16.size a
  hwx1_2 : ∀ i : grid1.Coords, EltTy.bits .f32 = 32 ∨ (Rect.block (s := S3300000x16) S10000x16.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x16.size a ≤ S100000x16.size a
  hwx2_0 : ∀ i : grid2.Coords, EltTy.bits .f32 = 32 ∨ (Rect.block (s := S100000x16) S10000x16.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S16.size a ≤ S16.size a
  hwx2_1 : ∀ i : grid2.Coords, EltTy.bits .f32 = 32 ∨ (Rect.block (s := S16) S16.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x16.size a ≤ S100000x16.size a
  hwx2_2 : ∀ i : grid2.Coords, EltTy.bits .f32 = 32 ∨ (Rect.block (s := S100000x16) S10000x16.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x16.size a ≤ S100000x16.size a
  hwx3_0 : ∀ i : grid3.Coords, EltTy.bits .f32 = 32 ∨ (Rect.block (s := S100000x16) S10000x16.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S16x1.size a ≤ S16x1.size a
  hwx3_1 : ∀ i : grid3.Coords, EltTy.bits .f32 = 32 ∨ (Rect.block (s := S16x1) S16x1.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x1.size a ≤ S100000x1.size a
  hwx3_2 : ∀ i : grid3.Coords, EltTy.bits .f32 = 32 ∨ (Rect.block (s := S100000x1) S10000x1.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x1.size a ≤ S3300000x1.size a
  hwx4_0 : ∀ i : grid4.Coords, EltTy.bits .f32 = 32 ∨ (Rect.block (s := S3300000x1) S10000x1.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S10000x1.size a ≤ S3300000x1.size a
  hwx4_1 : ∀ i : grid4.Coords, EltTy.bits .f32 = 32 ∨ (Rect.block (s := S3300000x1) S10000x1.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S10000x1.size a ≤ S3300000x1.size a
  hwx4_2 : ∀ i : grid4.Coords, EltTy.bits .f32 = 32 ∨ (Rect.block (s := S3300000x1) S10000x1.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S10000x1.size a ≤ S100000x1.size a
  hwx5_0 : ∀ i : grid5.Coords, EltTy.bits .f32 = 32 ∨ (Rect.block (s := S100000x1) S10000x1.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1.size a ≤ S1.size a
  hwx5_1 : ∀ i : grid5.Coords, EltTy.bits .f32 = 32 ∨ (Rect.block (s := S1) S1.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S10000x1.size a ≤ S100000x1.size a
  hwx5_2 : ∀ i : grid5.Coords, EltTy.bits .f32 = 32 ∨ (Rect.block (s := S100000x1) S10000x1.size (cc5_transform_2 i) (hinb5_2 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S10000x16_S16x16_S10000x16_1_0_0_1_n_n : DotDims S10000x16 S16x16 S10000x16 where
  lhsContracting := [1]
  rhsContracting := [0]
  lhsNonContracting := [0]
  rhsNonContracting := [1]
  lhsBatch := []
  rhsBatch := []
  wf := dot_S10000x16_S16x16_S10000x16_1_0_0_1_n_n_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S10000x16_S16x1_S10000x1_1_0_0_1_n_n : DotDims S10000x16 S16x1 S10000x1 where
  lhsContracting := [1]
  rhsContracting := [0]
  lhsNonContracting := [0]
  rhsNonContracting := [1]
  lhsBatch := []
  rhsBatch := []
  wf := dot_S10000x16_S16x1_S10000x1_1_0_0_1_n_n_wf
def gather_S100000x1_S3300000x1_S3300000x1_1_0_n_n_0_1_11 : GatherDims S100000x1 S3300000x1 S3300000x1 where
  offsetDims := [1]
  collapsedSliceDims := [0]
  operandBatchingDims := []
  startIndicesBatchingDims := []
  startIndexMap := [0]
  indexVectorDim := 1
  sliceSizes := ![1, 1]
  wf := gather_S100000x1_S3300000x1_S3300000x1_1_0_n_n_0_1_11_wf
def scatter_S100000x1_S3300000x1_S3300000x1_1_0_0_1 : ScatterDims S100000x1 S3300000x1 S3300000x1 where
  updateWindowDims := [1]
  insertedWindowDims := [0]
  scatterDimsToOperandDims := [0]
  indexVectorDim := 1
  wf := scatter_S100000x1_S3300000x1_S3300000x1_1_0_0_1_wf

abbrev win0_0 : Pipeline.Window sig grid0 :=
  Pipeline.Window.ofSpec (Memref.whole main_arg0) S10000x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S16x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S10000x16.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v37) S10000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v38) S10000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v39) S10000x16.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v42) S10000x16.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg3) S16.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v43) S10000x16.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v43) S10000x16.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg4) S16x1.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v44) S10000x1.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v51) S10000x1.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v52) S10000x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v53) S10000x1.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v56) S10000x1.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_arg5) S1.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v57) S10000x1.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

class Facts : Prop extends Facts₀ where

variable [Facts]
-- ==== ReferenceIdeal.lean ====
abbrev S100000x16 : Shape := ⟨2, ![100000, 16]⟩
abbrev S2x3200000 : Shape := ⟨2, ![2, 3200000]⟩
abbrev S16x16 : Shape := ⟨2, ![16, 16]⟩
abbrev S16 : Shape := ⟨1, ![16]⟩
abbrev S16x1 : Shape := ⟨2, ![16, 1]⟩
abbrev S1 : Shape := ⟨1, ![1]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S3300000x16 : Shape := ⟨2, ![3300000, 16]⟩
abbrev S1x16 : Shape := ⟨2, ![1, 16]⟩
abbrev S100000x1 : Shape := ⟨2, ![100000, 1]⟩
abbrev S1x1 : Shape := ⟨2, ![1, 1]⟩

abbrev nBuf : Space → Nat
  | .hbm => 129
  | .vmem => 0
  | .smem => 0
  | _ => 0

abbrev hbmTy0_0 (i : Nat) : BufTy := match i % 128 with
  | 0 => ⟨S100000x16, .f32⟩
  | 1 => ⟨S2x3200000, .i32⟩
  | 2 => ⟨S16x16, .f32⟩
  | 3 => ⟨S16, .f32⟩
  | 4 => ⟨S16x1, .f32⟩
  | 5 => ⟨S1, .f32⟩
  | 6 => ⟨S100000x16, .f32⟩
  | 7 => ⟨S100000, .i32⟩
  | 8 => ⟨S1x3200000, .i32⟩
  | 9 => ⟨S3200000, .i32⟩
  | 10 => ⟨S3300000, .i32⟩
  | 11 => ⟨S1x3200000, .i32⟩
  | 12 => ⟨S3200000, .i32⟩
  | 13 => ⟨S3300000, .i32⟩
  | 14 => ⟨S_, .f32⟩
  | 15 => ⟨S3300000, .f32⟩
  | 16 => ⟨S_, .f32⟩
  | 17 => ⟨S100000, .f32⟩
  | 18 => ⟨S3300000x1, .i32⟩
  | 19 => ⟨S100000, .f32⟩
  | 20 => ⟨S_, .f32⟩
  | 21 => ⟨S100000, .f32⟩
  | 22 => ⟨S100000, .i1⟩
  | 23 => ⟨S100000, .f32⟩
  | 24 => ⟨S_, .f32⟩
  | 25 => ⟨S_, .f32⟩
  | 26 => ⟨S100000, .f32⟩
  | 27 => ⟨S100000, .f32⟩
  | 28 => ⟨S_, .i32⟩
  | 29 => ⟨S3300000, .i32⟩
  | 30 => ⟨S3300000, .i1⟩
  | 31 => ⟨S_, .i32⟩
  | 32 => ⟨S3300000, .i32⟩
  | 33 => ⟨S3300000, .i32⟩
  | 34 => ⟨S3300000, .i32⟩
  | 35 => ⟨S3300000x1, .i32⟩
  | 36 => ⟨S3300000, .f32⟩
  | 37 => ⟨S_, .i32⟩
  | 38 => ⟨S3300000, .i32⟩
  | 39 => ⟨S3300000, .i1⟩
  | 40 => ⟨S_, .i32⟩
  | 41 => ⟨S3300000, .i32⟩
  | 42 => ⟨S3300000, .i32⟩
  | 43 => ⟨S3300000, .i32⟩
  | 44 => ⟨S3300000x1, .i32⟩
  | 45 => ⟨S3300000, .f32⟩
  | 46 => ⟨S3300000, .f32⟩
  | 47 => ⟨S_, .i32⟩
  | 48 => ⟨S3300000, .i32⟩
  | 49 => ⟨S3300000, .i1⟩
  | 50 => ⟨S_, .i32⟩
  | 51 => ⟨S3300000, .i32⟩
  | 52 => ⟨S3300000, .i32⟩
  | 53 => ⟨S3300000, .i32⟩
  | 54 => ⟨S3300000x1, .i32⟩
  | 55 => ⟨S3300000x16, .f32⟩
  | 56 => ⟨S3300000x1, .f32⟩
  | 57 => ⟨S3300000x16, .f32⟩
  | 58 => ⟨S3300000x16, .f32⟩
  | 59 => ⟨S_, .f32⟩
  | 60 => ⟨S100000x16, .f32⟩
  | 61 => ⟨S3300000x1, .i32⟩
  | 62 => ⟨S100000x16, .f32⟩
  | 63 => ⟨S1x16, .f32⟩
  | 64 => ⟨S100000x16, .f32⟩
  | 65 => ⟨S100000x16, .f32⟩
  | 66 => ⟨S_, .f32⟩
  | 67 => ⟨S100000x16, .f32⟩
  | 68 => ⟨S100000x16, .f32⟩
  | 69 => ⟨S100000x1, .f32⟩
  | 70 => ⟨S100000, .i32⟩
  | 71 => ⟨S1x3200000, .i32⟩
  | 72 => ⟨S3200000, .i32⟩
  | 73 => ⟨S3300000, .i32⟩
  | 74 => ⟨S1x3200000, .i32⟩
  | 75 => ⟨S3200000, .i32⟩
  | 76 => ⟨S3300000, .i32⟩
  | 77 => ⟨S_, .f32⟩
  | 78 => ⟨S3300000, .f32⟩
  | 79 => ⟨S_, .f32⟩
  | 80 => ⟨S100000, .f32⟩
  | 81 => ⟨S3300000x1, .i32⟩
  | 82 => ⟨S100000, .f32⟩
  | 83 => ⟨S_, .f32⟩
  | 84 => ⟨S100000, .f32⟩
  | 85 => ⟨S100000, .i1⟩
  | 86 => ⟨S100000, .f32⟩
  | 87 => ⟨S_, .f32⟩
  | 88 => ⟨S_, .f32⟩
  | 89 => ⟨S100000, .f32⟩
  | 90 => ⟨S100000, .f32⟩
  | 91 => ⟨S_, .i32⟩
  | 92 => ⟨S3300000, .i32⟩
  | 93 => ⟨S3300000, .i1⟩
  | 94 => ⟨S_, .i32⟩
  | 95 => ⟨S3300000, .i32⟩
  | 96 => ⟨S3300000, .i32⟩
  | 97 => ⟨S3300000, .i32⟩
  | 98 => ⟨S3300000x1, .i32⟩
  | 99 => ⟨S3300000, .f32⟩
  | 100 => ⟨S_, .i32⟩
  | 101 => ⟨S3300000, .i32⟩
  | 102 => ⟨S3300000, .i1⟩
  | 103 => ⟨S_, .i32⟩
  | 104 => ⟨S3300000, .i32⟩
  | 105 => ⟨S3300000, .i32⟩
  | 106 => ⟨S3300000, .i32⟩
  | 107 => ⟨S3300000x1, .i32⟩
  | 108 => ⟨S3300000, .f32⟩
  | 109 => ⟨S3300000, .f32⟩
  | 110 => ⟨S_, .i32⟩
  | 111 => ⟨S3300000, .i32⟩
  | 112 => ⟨S3300000, .i1⟩
  | 113 => ⟨S_, .i32⟩
  | 114 => ⟨S3300000, .i32⟩
  | 115 => ⟨S3300000, .i32⟩
  | 116 => ⟨S3300000, .i32⟩
  | 117 => ⟨S3300000x1, .i32⟩
  | 118 => ⟨S3300000x1, .f32⟩
  | 119 => ⟨S3300000x1, .f32⟩
  | 120 => ⟨S3300000x1, .f32⟩
  | 121 => ⟨S_, .f32⟩
  | 122 => ⟨S100000x1, .f32⟩
  | 123 => ⟨S3300000x1, .i32⟩
  | 124 => ⟨S100000x1, .f32⟩
  | 125 => ⟨S1x1, .f32⟩
  | 126 => ⟨S100000x1, .f32⟩
  | 127 => ⟨S100000x1, .f32⟩
  | _ => ⟨S100000x16, .f32⟩

abbrev hbmTy0_1 (i : Nat) : BufTy := match i % 128 with
  | 0 => ⟨S100000, .f32⟩
  | _ => ⟨S100000x16, .f32⟩

abbrev hbmTy (i : Nat) : BufTy := match i / 128 with
  | 0 => hbmTy0_0 i
  | 1 => hbmTy0_1 i
  | _ => ⟨S100000x16, .f32⟩

abbrev bufTy : (tb : Table) → Fin (tcTables nBuf tb) → BufTy
  | .hbm, ⟨i, _⟩ => hbmTy i
  | _, _ => ⟨S100000x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_cst_9 : Ref sig .tc := ⟨.hbm, 77, rfl⟩
abbrev main_v56 : Ref sig .tc := ⟨.hbm, 78, rfl⟩
abbrev main_cst_10 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_cst_11 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_cst_12 : Ref sig .tc := ⟨.hbm, 87, rfl⟩
abbrev main_call2_v0 : Ref sig .tc := ⟨.hbm, 88, rfl⟩
abbrev main_call2_v1 : Ref sig .tc := ⟨.hbm, 89, rfl⟩
abbrev main_v63 : Ref sig .tc := ⟨.hbm, 90, rfl⟩
abbrev main_c_13 : Ref sig .tc := ⟨.hbm, 91, rfl⟩
abbrev main_v64 : Ref sig .tc := ⟨.hbm, 92, rfl⟩
abbrev main_v65 : Ref sig .tc := ⟨.hbm, 93, rfl⟩
abbrev main_c_14 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_c_15 : Ref sig .tc := ⟨.hbm, 100, rfl⟩
abbrev main_v71 : Ref sig .tc := ⟨.hbm, 101, rfl⟩
abbrev main_v72 : Ref sig .tc := ⟨.hbm, 102, rfl⟩
abbrev main_c_16 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_c_17 : Ref sig .tc := ⟨.hbm, 110, rfl⟩
abbrev main_v79 : Ref sig .tc := ⟨.hbm, 111, rfl⟩
abbrev main_v80 : Ref sig .tc := ⟨.hbm, 112, rfl⟩
abbrev main_c_18 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_cst_19 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S_S100000x1 : S_.BroadcastsInDim S100000x1 (![] : Fin 0 → Fin S100000x1.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  shapeCasts_S100000x1_S100000 : S100000x1.ShapeCasts S100000
  dot_S100000x16_S16x16_S100000x16_1_0_0_1_n_n_wf : DotDims.WF S100000x16 S16x16 S100000x16 [1] [0] [0] [1] [] []
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S100000x16_S16x1_S100000x1_1_0_0_1_n_n_wf : DotDims.WF S100000x16 S16x1 S100000x1 [1] [0] [0] [1] [] []
  gather_S100000x1_S3300000x1_S3300000x1_1_0_n_n_0_1_11_wf : GatherDims.WF S100000x1 S3300000x1 S3300000x1 [1] [0] [] [0] [] 1 ![1, 1]
  scatter_S100000x1_S3300000x1_S3300000x1_1_0_0_1_wf : ScatterDims.WF S100000x1 S3300000x1 S3300000x1 [1] [0] [0] 1

variable [Facts₀]

def dot_S100000x16_S16x16_S100000x16_1_0_0_1_n_n : DotDims S100000x16 S16x16 S100000x16 where
  lhsContracting := [1]
  rhsContracting := [0]
  lhsNonContracting := [0]
  rhsNonContracting := [1]
  lhsBatch := []
  rhsBatch := []
  wf := dot_S100000x16_S16x16_S100000x16_1_0_0_1_n_n_wf
def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S100000x16_S16x1_S100000x1_1_0_0_1_n_n : DotDims S100000x16 S16x1 S100000x1 where
  lhsContracting := [1]
  rhsContracting := [0]
  lhsNonContracting := [0]
  rhsNonContracting := [1]
  lhsBatch := []
  rhsBatch := []
  wf := dot_S100000x16_S16x1_S100000x1_1_0_0_1_n_n_wf
def gather_S100000x1_S3300000x1_S3300000x1_1_0_n_n_0_1_11 : GatherDims S100000x1 S3300000x1 S3300000x1 where
  offsetDims := [1]
  collapsedSliceDims := [0]
  operandBatchingDims := []
  startIndicesBatchingDims := []
  startIndexMap := [0]
  indexVectorDim := 1
  sliceSizes := ![1, 1]
  wf := gather_S100000x1_S3300000x1_S3300000x1_1_0_n_n_0_1_11_wf
def scatter_S100000x1_S3300000x1_S3300000x1_1_0_0_1 : ScatterDims S100000x1 S3300000x1 S3300000x1 where
  updateWindowDims := [1]
  insertedWindowDims := [0]
  scatterDimsToOperandDims := [0]
  indexVectorDim := 1
  wf := scatter_S100000x1_S3300000x1_S3300000x1_1_0_0_1_wf

class Facts : Prop extends Facts₀ where

variable [Facts]
-- ==== Proof.GcnStages.lean ====
/-
  The two-layer graph convolution that both programs compute, as named functions of the argument arrays.

  The graph has 100000 nodes and 3200000 edges given as a 2 × 3200000 table of node numbers (row 0 the source of each
  edge, row 1 its target); every node also gets a self loop, so there are 3300000 messages per layer. A node's degree
  is the number of messages that arrive at it, an edge's weight is 1/sqrt(degree source) · 1/sqrt(degree target) (0 for
  a node of degree 0), and one layer sends every node's feature row along every edge scaled by the edge's weight, sums
  what arrives, and adds a bias. The first layer (16 → 16 features) is followed by max(·, 0), the second (16 → 1) is
  read as a vector of 100000 numbers. Every operation is the printed host operation over the printed shapes; the
  functions are stated for any float instance.
-/
import proofs.«167111_j28578712387811_2_alg».proof.Proof.Gen.ReferenceIdeal

noncomputable section

namespace Cert.GcnStages

open Cert.ReferenceIdeal Cert.ReferenceIdeal.Gen Idealize.ShloMosaic

variable {F : FTy → Type} [FloatOps F]

/-- The source of every message: row 0 of the edge table, then each node once (its self loop). -/
def sources (e : IVec S2x3200000 32) : IVec S3300000 32 :=
  concatenate S3300000 0 [⟨S3200000, (shapeCast _ (extractStridedSlice S1x3200000 ![0, 0] e slices_S2x3200000_S1x3200000_0_0) shapeCasts_S1x3200000_S3200000)⟩, ⟨S100000, (iotaInDim S100000 32 0)⟩] concatenates_S3200000_S100000_S3300000_d0

/-- The target of every message: row 1 of the edge table, then each node once. -/
def targets (e : IVec S2x3200000 32) : IVec S3300000 32 :=
  concatenate S3300000 0 [⟨S3200000, (shapeCast _ (extractStridedSlice S1x3200000 ![1, 0] e slices_S2x3200000_S1x3200000_1_0) shapeCasts_S1x3200000_S3200000)⟩, ⟨S100000, (iotaInDim S100000 32 0)⟩] concatenates_S3200000_S100000_S3300000_d0

/-- Node numbers as a column of row indices. -/
def asColumn (v : IVec S3300000 32) : IVec S3300000x1 32 :=
  broadcastInDim S3300000x1 ![0] bcast_S3300000_S3300000x1_0 v

/-- Node numbers used to READ a row: a negative number counts from the end (v + 100000). -/
def readIndex (v : IVec S3300000 32) : IVec S3300000x1 32 :=
  asColumn (select (cmpi .slt v (broadcastInDim S3300000 ![] bcast_S_S3300000 (constantI S_ 32 0#32))) (addi v (broadcastInDim S3300000 ![] bcast_S_S3300000 (constantI S_ 32 100000#32))) v)

/-- A node's degree: one unit added at the target of every message. -/
def degree (e : IVec S2x3200000 32) : FVec F S100000 .f32 :=
  Host.scatterAdd scatter_S100000_S3300000x1_S3300000_n_0_0_1 (broadcastInDim S100000 ![] bcast_S_S100000 (constant S_ .f32 0x00000000#32)) (asColumn (targets e)) (broadcastInDim S3300000 ![] bcast_S_S3300000 (constant S_ .f32 0x3F800000#32))

/-- 1/sqrt(degree) where the degree is positive, 0 elsewhere. -/
def invSqrtDegree (e : IVec S2x3200000 32) : FVec F S100000 .f32 :=
  select (cmpf (F := F) .ogt (degree e) (broadcastInDim S100000 ![] bcast_S_S100000 (constant S_ .f32 0x00000000#32))) (Host.rsqrt (degree e)) (broadcastInDim S100000 ![] bcast_S_S100000 (id (constant S_ .f32 0x00000000#32)))

/-- A message's weight: the product of the two factors at its source and at its target. -/
def edgeWeight (e : IVec S2x3200000 32) : FVec F S3300000 .f32 :=
  mulf (Host.gather gather_S100000_S3300000x1_S3300000_n_0_n_n_0_1_1 (invSqrtDegree e) (readIndex (sources e))) (Host.gather gather_S100000_S3300000x1_S3300000_n_0_n_n_0_1_1 (invSqrtDegree e) (readIndex (targets e)))

/-- Row r of a 16-feature array scaled by the r-th weight (the weights first made a column, then spread over the features). -/
def scaled16 (a : FVec F S3300000x16 .f32) (n : FVec F S3300000 .f32) : FVec F S3300000x16 .f32 :=
  mulf a (broadcastInDim S3300000x16 ![0, 1] bcast_S3300000x1_S3300000x16_0_1 (broadcastInDim S3300000x1 ![0] bcast_S3300000_S3300000x1_0 n))

/-- The source's row of `h` for every message. -/
def rows16 (h : FVec F S100000x16 .f32) (e : IVec S2x3200000 32) : FVec F S3300000x16 .f32 :=
  Host.gather gather_S100000x16_S3300000x1_S3300000x16_1_0_n_n_0_1_116 h (readIndex (sources e))

/-- The 16-feature messages: the source's row of `h`, every feature scaled by the message's weight. -/
def messages16 (h : FVec F S100000x16 .f32) (e : IVec S2x3200000 32) : FVec F S3300000x16 .f32 :=
  scaled16 (rows16 h e) (edgeWeight e)

/-- Summing the 16-feature messages at their targets. -/
def gathered16 (msgs : FVec F S3300000x16 .f32) (e : IVec S2x3200000 32) : FVec F S100000x16 .f32 :=
  Host.scatterAdd scatter_S100000x16_S3300000x1_S3300000x16_1_0_0_1 (broadcastInDim S100000x16 ![] bcast_S_S100000x16 (constant S_ .f32 0x00000000#32)) (asColumn (targets e)) msgs

/-- The first layer's features x · W₁. -/
def projected16 (x : FVec F S100000x16 .f32) (w1 : FVec F S16x16 .f32) : FVec F S100000x16 .f32 :=
  Host.dotGeneral dot_S100000x16_S16x16_S100000x16_1_0_0_1_n_n none x w1

/-- Adding the bias row b₁ to every node and taking max(·, 0). -/
def biasedRectified (a : FVec F S100000x16 .f32) (b1 : FVec F S16 .f32) : FVec F S100000x16 .f32 :=
  maximumf (addf a (broadcastInDim S100000x16 ![0, 1] bcast_S1x16_S100000x16_0_1 (broadcastInDim S1x16 ![1] bcast_S16_S1x16_1 b1))) (broadcastInDim S100000x16 ![] bcast_S_S100000x16 (constant S_ .f32 0x00000000#32))

/-- The hidden features: the first layer with its rectification. -/
def hidden (x : FVec F S100000x16 .f32) (e : IVec S2x3200000 32) (w1 : FVec F S16x16 .f32) (b1 : FVec F S16 .f32) : FVec F S100000x16 .f32 :=
  biasedRectified (gathered16 (messages16 (projected16 x w1) e) e) b1

/-- The second layer's one feature h · W₂. -/
def projected1 (h : FVec F S100000x16 .f32) (w2 : FVec F S16x1 .f32) : FVec F S100000x1 .f32 :=
  Host.dotGeneral dot_S100000x16_S16x1_S100000x1_1_0_0_1_n_n none h w2

/-- Row r of a one-feature array scaled by the r-th weight. -/
def scaled1 (a : FVec F S3300000x1 .f32) (n : FVec F S3300000 .f32) : FVec F S3300000x1 .f32 :=
  mulf a (broadcastInDim S3300000x1 ![0] bcast_S3300000_S3300000x1_0 n)

/-- The source's entry of `h` for every message. -/
def rows1 (h : FVec F S100000x1 .f32) (e : IVec S2x3200000 32) : FVec F S3300000x1 .f32 :=
  Host.gather gather_S100000x1_S3300000x1_S3300000x1_1_0_n_n_0_1_11 h (readIndex (sources e))

/-- The one-feature messages. -/
def messages1 (h : FVec F S100000x1 .f32) (e : IVec S2x3200000 32) : FVec F S3300000x1 .f32 :=
  scaled1 (rows1 h e) (edgeWeight e)

/-- Summing the one-feature messages at their targets. -/
def gathered1 (msgs : FVec F S3300000x1 .f32) (e : IVec S2x3200000 32) : FVec F S100000x1 .f32 :=
  Host.scatterAdd scatter_S100000x1_S3300000x1_S3300000x1_1_0_0_1 (broadcastInDim S100000x1 ![] bcast_S_S100000x1 (constant S_ .f32 0x00000000#32)) (asColumn (targets e)) msgs

/-- Adding the bias b₂ to every node. -/
def biased1 (a : FVec F S100000x1 .f32) (b2 : FVec F S1 .f32) : FVec F S100000x1 .f32 :=
  addf a (broadcastInDim S100000x1 ![0, 1] bcast_S1x1_S100000x1_0_1 (broadcastInDim S1x1 ![1] bcast_S1_S1x1_1 b2))

/-- The network's output before it is read as a vector. -/
def outputColumn (x : FVec F S100000x16 .f32) (e : IVec S2x3200000 32) (w1 : FVec F S16x16 .f32) (b1 : FVec F S16 .f32)
    (w2 : FVec F S16x1 .f32) (b2 : FVec F S1 .f32) : FVec F S100000x1 .f32 :=
  biased1 (gathered1 (messages1 (projected1 (hidden x e w1 b1) w2) e) e) b2

/-- The network's output: one number per node. -/
def output (x : FVec F S100000x16 .f32) (e : IVec S2x3200000 32) (w1 : FVec F S16x16 .f32) (b1 : FVec F S16 .f32)
    (w2 : FVec F S16x1 .f32) (b2 : FVec F S1 .f32) : FVec F S100000 .f32 :=
  shapeCast _ (outputColumn x e w1 b1 w2 b2) shapeCasts_S100000x1_S100000

end Cert.GcnStages

end
-- ==== Proof.RefValue.lean ====
/-
  The reference's result is the graph convolution's output of its arguments.

  The reference program is a straight line of host operations; its result, as the composed term of the launch contents
  of the arguments, is the output stage with every named stage unfolded (the reference recomputes the sources, the
  targets and the weights for its second layer by the same operations of the same edge table, so both copies are the
  same stages).
-/
import proofs.«167111_j28578712387811_2_alg».proof.Proof.RefRun
import proofs.«167111_j28578712387811_2_alg».proof.Proof.GcnStages
import Idealize.ShloMosaic.PureOps.Ideal

set_option maxRecDepth 16384

noncomputable section

namespace Cert.ReferenceIdeal.RefValue

open Cert.ReferenceIdeal Cert.ReferenceIdeal.Gen
open Idealize.ShloMosaic Idealize.ShloMosaic.TcCoe Idealize.SL.Sem

set_option maxHeartbeats 4000000 in
/-- The composed term the reference's run ends at is the output stage of the arguments as launched. -/
theorem result (m : (ℓ : Loc nD τ sig) → Buf (Elt Ideal) ℓ) (c : Dev nD) :
    Cert.ReferenceIdeal.ValueP.res_main_v94 (F := Ideal) m c
      = Cert.GcnStages.output (F := Ideal) (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5)) := rfl

end Cert.ReferenceIdeal.RefValue

end
-- ==== Proof.WholeRun.lean ====
/-
  The idealized kernel's run with its result named. @main is fourteen segments — stretches of host operations and the
  six kernel regions — and the state between two segments is "every buffer that outlives a region holds the boundary's
  contents". The last boundary's contents therefore say what every such buffer holds when @main returns: in
  particular the result, and the six argument arrays, which no segment writes.
-/
import proofs.«167111_j28578712387811_2_alg».proof.Proof.Gen.KernelIdeal.Frame

set_option maxRecDepth 16384

noncomputable section

namespace Cert.KernelIdeal.WholeRun

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the idealized kernel's @main terminates without a fault, and at the end every buffer
    that outlives a region holds what the last segment boundary's contents say: the fold of the host operations and of
    the six regions' write-backs, started from the launch memory. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W14 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 m ρ c b)
    (hfin := fun c s' => by
      iintro ⟨⟨Hh, -⟩, HSI⟩
      unfold StableHlo.held
      imodintro
      iapply (pointsTo_read_all (Pipeline.ucRefs τ sig) (fun b => (((c : Thread nD τ)).1, b)) (W14 m ρ c) s')
      isplitl [Hh] <;> iassumption)
    (hQ := fun s h => h)

/-- The same run read at the result and at the arguments: the result buffer ends at the last boundary's contents, the
    argument arrays as launched. -/
theorem run_result : θ_run defs (onTc (τ := τ) (main (F := F))) ⟨m, fun _ => 0, ρ⟩ (fun r => ∀ c : Dev nD,
      r.2.mem ((c.tc : Thread nD τ).loc main_v58) = W14 m ρ c (Proc.devRef .tc main_v58)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
      ⟨h c _ (mem_uc main_v58 (by decide)),
       (h c _ (mem_uc main_arg0 (by decide))).trans (W14_main_arg0 m ρ c),
       (h c _ (mem_uc main_arg1 (by decide))).trans (W14_main_arg1 m ρ c),
       (h c _ (mem_uc main_arg2 (by decide))).trans (W14_main_arg2 m ρ c),
       (h c _ (mem_uc main_arg3 (by decide))).trans (W14_main_arg3 m ρ c),
       (h c _ (mem_uc main_arg4 (by decide))).trans (W14_main_arg4 m ρ c),
       (h c _ (mem_uc main_arg5 (by decide))).trans (W14_main_arg5 m ρ c)⟩)
    (run_all m ρ)

end Cert.KernelIdeal.WholeRun

end
-- ==== Proof.LibPlainDot.lean ====
/-
  A plain matrix product read at an index, at the ideal instance.

  For the dimension numbers of an `M × K` by `K × N` product (contract the left operand's second axis with the right
  operand's first), a kernel's matrix product into a zero accumulator and the host's `dot_general` are both, at the output
  index `(r, c)`, the sum over `k : Fin K` of `lhs (r, k) * rhs (k, c)`.
-/
import Idealize.ShloMosaic.PureOps.Ideal.Laws
import Idealize.ShloMosaic.Lib.ValueIdx

noncomputable section

namespace Cert.LibPlainDot

open Idealize.ShloMosaic Idealize.ShloMosaic.ValueIdx

variable {M K N : Nat} {φ₁ φ₂ : FTy}

/-- The contraction shape of a plain product has one axis, of extent `K`. -/
theorem plain_contr_rank : (DotDims.plain M K N).contr.rank = 1 := rfl
theorem plain_contr_size : (DotDims.plain M K N).contr.size ⟨0, by rw [plain_contr_rank]; exact Nat.one_pos⟩ = K := rfl

/-- The operand indices of a plain product at the output index `j` and the contraction coordinate `k`. -/
theorem plain_lhsIdx (j : (⟨2, ![M, N]⟩ : Shape).Idx) (k : Fin K) :
    (DotDims.plain M K N).lhsIdx j ((contrEquiv1 (DotDims.plain M K N) K rfl rfl).symm k) = ix2 (j 0) k := by
  have hk := contrEquiv1_symm_val (DotDims.plain M K N) K rfl rfl k
  funext a
  apply Fin.ext
  match a with
  | ⟨0, _⟩ => rfl
  | ⟨1, _⟩ => exact ((DotDims.plain M K N).lhsIdx_val_of_single rfl j _).trans hk

theorem plain_rhsIdx (j : (⟨2, ![M, N]⟩ : Shape).Idx) (k : Fin K) :
    (DotDims.plain M K N).rhsIdx j ((contrEquiv1 (DotDims.plain M K N) K rfl rfl).symm k) = ix2 k (j 1) := by
  have hk := contrEquiv1_symm_val (DotDims.plain M K N) K rfl rfl k
  funext a
  apply Fin.ext
  match a with
  | ⟨0, _⟩ => exact ((DotDims.plain M K N).rhsIdx_val_of_single rfl j _).trans hk
  | ⟨1, _⟩ => rfl

/-- A kernel's plain product into the zero accumulator, at an index. -/
theorem plain_matmul_apply (prec : Option ContractPrecision) (lhs : FVec Ideal ⟨2, ![M, K]⟩ φ₁) (rhs : FVec Ideal ⟨2, ![K, N]⟩ φ₂)
    (j : (⟨2, ![M, N]⟩ : Shape).Idx) :
    FloatOps.matmul (DotDims.plain M K N) prec lhs rhs (constant ⟨2, ![M, N]⟩ .f32 0x00000000#32) j
      = ∑ k : Fin K, lhs (ix2 (j 0) k) * rhs (ix2 k (j 1)) := by
  rw [Ideal.matmul_constant_zero_apply, ← Equiv.sum_comp (contrEquiv1 (DotDims.plain M K N) K rfl rfl).symm]
  exact Finset.sum_congr rfl fun k _ => by rw [plain_lhsIdx, plain_rhsIdx]; rfl

/-- The host's plain product, at an index. -/
theorem plain_dotGeneral_apply (prec : Option ContractPrecision) (sched : HostSchedule) (lhs : FVec Ideal ⟨2, ![M, K]⟩ φ₁)
    (rhs : FVec Ideal ⟨2, ![K, N]⟩ φ₂) (j : (⟨2, ![M, N]⟩ : Shape).Idx) :
    FloatOps.dotGeneral (DotDims.plain M K N) prec sched lhs rhs j
      = ∑ k : Fin K, lhs (ix2 (j 0) k) * rhs (ix2 k (j 1)) := by
  rw [Ideal.dotGeneral_apply, ← Equiv.sum_comp (contrEquiv1 (DotDims.plain M K N) K rfl rfl).symm]
  exact Finset.sum_congr rfl fun k _ => by rw [plain_lhsIdx, plain_rhsIdx]; rfl

end Cert.LibPlainDot

end
-- ==== Proof.Product16.lean ====
/-
  The first kernel region: h = x · W₁, computed ten blocks of 10000 rows at a time.

  A grid point t multiplies rows 10000·t … 10000·t + 9999 of x by the whole 16 × 16 matrix (the narrowing of both
  operands to bf16 is the identity on extended reals, and the product accumulates into zero) and writes the result to the
  same rows of the output. An entry (r, q) of a block is the sum over k of x(r, k) · W₁(k, q), which is the entry of the
  whole product at that row; the ten blocks tile the 100000 rows, so the output array ends as the whole product.
-/
import proofs.«167111_j28578712387811_2_alg».proof.Proof.Gen.KernelIdeal.Frame
import proofs.«167111_j28578712387811_2_alg».proof.Proof.LibPlainDot
import Idealize.ShloMosaic.Lib.Pipeline.Value
import Idealize.ShloMosaic.Lib.ValueIdx
import Idealize.ShloMosaic.PureOps.Ideal.Laws

set_option maxRecDepth 16384

noncomputable section

namespace Cert.KernelIdeal.Product16

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem origin2 : (![0, 0] : Fin 2 → Nat) = fun _ => 0 := funext fun a => by fin_cases a <;> rfl

/-- x · w for a 100000 × 16 array and a 16 × 16 matrix: the host's product. -/
def whole (x : FVec Ideal S100000x16 .f32) (w : FVec Ideal S16x16 .f32) : FVec Ideal S100000x16 .f32 :=
  Host.dotGeneral (F := Ideal) (DotDims.plain 100000 16 16) none x w

/-- An entry of the whole product. -/
theorem whole_apply (x : FVec Ideal S100000x16 .f32) (w : FVec Ideal S16x16 .f32) (i : S100000x16.Idx) :
    whole x w i = ∑ k : Fin 16, x (ix2 (i 0) k) * w (ix2 k (i 1)) := by
  unfold whole
  simp only [Host.dotGeneral]
  exact Cert.LibPlainDot.plain_dotGeneral_apply (M := 100000) (K := 16) (N := 16) none _ x w i

/-- An entry of one block's product: the body's arithmetic at an index. -/
theorem block_apply (x0 : Vec Ideal S10000x16 .f32) (x1 : Vec Ideal S16x16 .f32) (j : S10000x16.Idx) :
    k0_pay1 (F := Ideal) x0 x1 j = ∑ k : Fin 16, x0 (ix2 (j 0) k) * x1 (ix2 k (j 1)) := by
  unfold k0_pay1
  exact Cert.LibPlainDot.plain_matmul_apply (M := 10000) (K := 16) (N := 16) none x0 x1 j

/-- The printed index maps over the grid: the row blocks of x and of the output move with the point, the matrix stays. -/
theorem index_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point t writes back is block t of the whole product of the arrays the region finds. -/
theorem flushed_eq (c : Dev nD) (t : Fin cfg0.N) :
    (dat0 V c).flushed 2 t = ((cfg0.win 2).blk t).view.read (Elt Ideal) (whole (V c main_arg0) (V c main_arg2)) := by
  show (cfg0.win 2).cut (grid0.coords t) ((dat0 V c).after 2 t) = _
  rw [after0_2]
  unfold out0_2
  rw [View.canon_unit_zero origin2]
  simp only [View.ld_unit_zero (S := S10000x16) origin2, View.ld_unit_zero (S := S16x16) origin2]
  obtain ⟨e00, e01, e10, e11, e20, e21⟩ := index_facts t
  funext j
  show k0_pay1 (F := Ideal) (iblk0 V c 0 t) (iblk0 V c 1 t) j = whole (V c main_arg0) (V c main_arg2) (((cfg0.win 2).blk t).view.emb j)
  refine (block_apply _ _ j).trans ((whole_apply _ _ _).trans ?_).symm
  refine Finset.sum_congr rfl fun k _ => ?_
  have h0 : ((cfg0.win 0).blk t).view.emb (ix2 (j 0) k) = ix2 ((((cfg0.win 2).blk t).view.emb j) 0) k := by
    funext a; apply Fin.ext
    match a with
    | ⟨0, _⟩ => show win0_0.index t (0 : Fin 2) * 10000 + 1 * (j 0).val = win0_2.index t (0 : Fin 2) * 10000 + 1 * (j 0).val; omega
    | ⟨1, _⟩ => show win0_0.index t (1 : Fin 2) * 16 + 1 * k.val = k.val; omega
  have h1 : ((cfg0.win 1).blk t).view.emb (ix2 k (j 1)) = ix2 k ((((cfg0.win 2).blk t).view.emb j) 1) := by
    funext a; apply Fin.ext
    match a with
    | ⟨0, _⟩ => show win0_1.index t (0 : Fin 2) * 16 + 1 * k.val = k.val; omega
    | ⟨1, _⟩ => show win0_1.index t (1 : Fin 2) * 16 + 1 * (j 1).val = win0_2.index t (1 : Fin 2) * 16 + 1 * (j 1).val; omega
  exact congrArg₂ (fun a b : Ideal .f32 => a * b)
    (congrArg (V c main_arg0 : FVec Ideal S100000x16 .f32) h0.symm) (congrArg (V c main_arg2 : FVec Ideal S16x16 .f32) h1.symm)

/-- An index of the output is in point t's block iff each coordinate is in the block's range. -/
theorem mem_blk (t : Fin cfg0.N) (i : S100000x16.Idx) :
    i ∈ ((cfg0.win 2).blk t).view.set ↔ ∀ a : Fin 2, win0_2.index t a * S10000x16.size a ≤ (i a).val ∧ (i a).val < win0_2.index t a * S10000x16.size a + S10000x16.size a := by
  show i ∈ ((View.whole main_v30).slice (win0_2.rect t)).set ↔ _
  rw [View.set_slice_whole, Rect.mem_set_unit]
  exact Iff.rfl

/-- Every row of the output lies in the block of the point numbered row / 10000. -/
theorem covered (i : S100000x16.Idx) : ∃ t : Fin cfg0.N, (cfg0.win 2).flush t = true ∧ i ∈ ((cfg0.win 2).blk t).view.set := by
  have hi0 : (i 0).val < 100000 := (i 0).isLt
  have hi1 : (i 1).val < 16 := (i 1).isLt
  have hN : cfg0.N = 10 := N_0
  have ht : (i 0).val / 10000 < cfg0.N := by rw [hN]; omega
  obtain ⟨-, -, -, -, e20, e21⟩ := index_facts ⟨(i 0).val / 10000, ht⟩
  refine ⟨⟨(i 0).val / 10000, ht⟩, flush0_2 _, ?_⟩
  rw [mem_blk]
  intro a
  match a with
  | ⟨0, _⟩ =>
    show win0_2.index ⟨(i 0).val / 10000, ht⟩ (0 : Fin 2) * 10000 ≤ (i 0).val ∧ (i 0).val < win0_2.index ⟨(i 0).val / 10000, ht⟩ (0 : Fin 2) * 10000 + 10000
    rw [e20]; show (i 0).val / 10000 * 10000 ≤ (i 0).val ∧ (i 0).val < (i 0).val / 10000 * 10000 + 10000; omega
  | ⟨1, _⟩ =>
    show win0_2.index ⟨(i 0).val / 10000, ht⟩ (1 : Fin 2) * 16 ≤ (i 1).val ∧ (i 1).val < win0_2.index ⟨(i 0).val / 10000, ht⟩ (1 : Fin 2) * 16 + 16
    rw [e21]; omega

/-- The output array after the region: the whole product of the two arrays the region finds. -/
theorem value (c : Dev nD) : (dat0 V c).arrAt 2 cfg0.N = whole (V c main_arg0) (V c main_arg2) :=
  (dat0 V c).arrAt_eq_of_cover 2 (whole (V c main_arg0) (V c main_arg2)) (fun t _ => flushed_eq V c t) covered

end Cert.KernelIdeal.Product16

end
-- ==== Proof.LibColumnBroadcast.lean ====
/-
  A column broadcast along the lanes, read at an index given by coordinates: an [a, 1] array broadcast to [a, b] reads, at
  (r, k), the operand's row r at its one column. (The keepdims form of a per-row scale: the row broadcast [1, b] → [a, b]
  and the unit-axis casts are the library's; this is their column counterpart, in the same style.)
-/
import Idealize.ShloMosaic.Lib.Pipeline.Value
import Idealize.ShloMosaic.Lib.ValueIdx

namespace Cert.ColumnBroadcast

open Idealize.ShloMosaic Idealize.ShloMosaic.ValueIdx

variable {α : Type}

/-- An `[a, 1]` array broadcast to `[a, b]` reads, at `(r, k)`, the operand at `(r, 0)`: on the row axis the
    coordinate is kept (and is `0` anyway when there is one row), on the unit axis it is `0`. -/
theorem broadcastTo_a1_ab_apply {a b : ℕ} (v : (⟨2, ![a, 1]⟩ : Shape).Idx → α) (h : (⟨2, ![a, 1]⟩ : Shape).Broadcasts ⟨2, ![a, b]⟩)
    (r : Fin a) (k : Fin b) : broadcastTo ⟨2, ![a, b]⟩ v h (ix2 r k) = v (ix2 r (0 : Fin 1)) := by
  refine broadcastTo_apply v h (ix2 r k) (ix2 r (0 : Fin 1)) fun ax => ?_
  match ax with
  | ⟨0, _⟩ =>
    show r.val = if a = 1 then 0 else r.val
    split
    · have := r.isLt; omega
    · rfl
  | ⟨1, _⟩ => rfl

end Cert.ColumnBroadcast
-- ==== Proof.Scale16.lean ====
/-
  The second kernel region: every message's 16 features scaled by the message's weight, 330 blocks of 10000 messages
  at a time.

  A grid point t reads rows 10000·t … of the gathered features and the same rows of the weight column, spreads the
  weight along the 16 features and multiplies. An entry (r, q) of a block is a(r, q) · n(r, 0), which is that entry of
  the whole rowwise scaling; the 330 blocks tile the 3300000 rows.
-/
import proofs.«167111_j28578712387811_2_alg».proof.Proof.Gen.KernelIdeal.Frame
import proofs.«167111_j28578712387811_2_alg».proof.Proof.LibColumnBroadcast
import Idealize.ShloMosaic.Lib.Pipeline.Value
import Idealize.ShloMosaic.Lib.ValueIdx
import Idealize.ShloMosaic.PureOps.Ideal.Laws

set_option maxRecDepth 16384

noncomputable section

namespace Cert.KernelIdeal.Scale16

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem origin2 : (![0, 0] : Fin 2 → Nat) = fun _ => 0 := funext fun a => by fin_cases a <;> rfl

/-- Row r of a scaled by the r-th entry of the column n. -/
def whole (a : FVec Ideal S3300000x16 .f32) (n : FVec Ideal S3300000x1 .f32) : FVec Ideal S3300000x16 .f32 :=
  fun i => FloatOps.mulf (a i) (n (ix2 (i 0) (0 : Fin 1)))

/-- An entry of one block: the body's arithmetic at an index. -/
theorem block_apply (x0 : FVec Ideal S10000x16 .f32) (x1 : FVec Ideal S10000x1 .f32) (j : S10000x16.Idx) :
    k1_pay1 (F := Ideal) x0 x1 j = FloatOps.mulf (x0 j) (x1 (ix2 (j 0) (0 : Fin 1))) := by
  unfold k1_pay1
  show FloatOps.mulf (shapeCast S10000x16 x0 shapeCasts_S10000x16_S10000x16 j)
      (broadcastTo S10000x16 (shapeCast S10000x1 x1 shapeCasts_S10000x1_S10000x1) broadcasts_S10000x1_S10000x16 j) = _
  rw [shapeCast_self, shapeCast_self]
  have hb := Cert.ColumnBroadcast.broadcastTo_a1_ab_apply (a := 10000) (b := 16) x1 broadcasts_S10000x1_S10000x16 (j 0) (j 1)
  exact congrArg (FloatOps.mulf (x0 j))
    ((congrArg (broadcastTo S10000x16 x1 broadcasts_S10000x1_S10000x16) (eq_ix2 j)).trans hb)

/-- The printed index maps over the grid: all three windows' row blocks move with the point. -/
theorem index_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0 :=
  (by decide +kernel : ∀ t : Fin grid1.N, _)

/-- What point t writes back is block t of the whole scaling of the arrays the region finds. -/
theorem flushed_eq (c : Dev nD) (t : Fin cfg1.N) :
    (dat1 V c).flushed 2 t = ((cfg1.win 2).blk t).view.read (Elt Ideal) (whole (V c main_v37) (V c main_v38)) := by
  show (cfg1.win 2).cut (grid1.coords t) ((dat1 V c).after 2 t) = _
  rw [after1_2]
  unfold out1_2
  rw [View.canon_unit_zero origin2]
  simp only [View.ld_unit_zero (S := S10000x16) origin2, View.ld_unit_zero (S := S10000x1) origin2]
  obtain ⟨e00, e01, e10, e11, e20, e21⟩ := index_facts t
  funext j
  show k1_pay1 (F := Ideal) (iblk1 V c 0 t) (iblk1 V c 1 t) j = whole (V c main_v37) (V c main_v38) (((cfg1.win 2).blk t).view.emb j)
  refine (block_apply _ _ j).trans ?_
  have h0 : ((cfg1.win 0).blk t).view.emb j = ((cfg1.win 2).blk t).view.emb j := by
    funext a; apply Fin.ext
    match a with
    | ⟨0, _⟩ => show win1_0.index t (0 : Fin 2) * 10000 + 1 * (j 0).val = win1_2.index t (0 : Fin 2) * 10000 + 1 * (j 0).val; omega
    | ⟨1, _⟩ => show win1_0.index t (1 : Fin 2) * 16 + 1 * (j 1).val = win1_2.index t (1 : Fin 2) * 16 + 1 * (j 1).val; omega
  have h1 : ((cfg1.win 1).blk t).view.emb (ix2 (j 0) (0 : Fin 1)) = ix2 ((((cfg1.win 2).blk t).view.emb j) 0) (0 : Fin 1) := by
    funext a; apply Fin.ext
    match a with
    | ⟨0, _⟩ => show win1_1.index t (0 : Fin 2) * 10000 + 1 * (j 0).val = win1_2.index t (0 : Fin 2) * 10000 + 1 * (j 0).val; omega
    | ⟨1, _⟩ => show win1_1.index t (1 : Fin 2) * 1 + 1 * 0 = 0; omega
  exact congrArg₂ (fun a b : Ideal .f32 => FloatOps.mulf a b)
    (congrArg (V c main_v37 : FVec Ideal S3300000x16 .f32) h0) (congrArg (V c main_v38 : FVec Ideal S3300000x1 .f32) h1)

/-- An index of the output is in point t's block iff each coordinate is in the block's range. -/
theorem mem_blk (t : Fin cfg1.N) (i : S3300000x16.Idx) :
    i ∈ ((cfg1.win 2).blk t).view.set ↔ ∀ a : Fin 2, win1_2.index t a * S10000x16.size a ≤ (i a).val ∧ (i a).val < win1_2.index t a * S10000x16.size a + S10000x16.size a := by
  show i ∈ ((View.whole main_v39).slice (win1_2.rect t)).set ↔ _
  rw [View.set_slice_whole, Rect.mem_set_unit]
  exact Iff.rfl

/-- Every row of the output lies in the block of the point numbered row / 10000. -/
theorem covered (i : S3300000x16.Idx) : ∃ t : Fin cfg1.N, (cfg1.win 2).flush t = true ∧ i ∈ ((cfg1.win 2).blk t).view.set := by
  have hi0 : (i 0).val < 3300000 := (i 0).isLt
  have hi1 : (i 1).val < 16 := (i 1).isLt
  have hN : cfg1.N = 330 := N_1
  have ht : (i 0).val / 10000 < cfg1.N := by rw [hN]; omega
  obtain ⟨-, -, -, -, e20, e21⟩ := index_facts ⟨(i 0).val / 10000, ht⟩
  refine ⟨⟨(i 0).val / 10000, ht⟩, flush1_2 _, ?_⟩
  rw [mem_blk]
  intro a
  match a with
  | ⟨0, _⟩ =>
    show win1_2.index ⟨(i 0).val / 10000, ht⟩ (0 : Fin 2) * 10000 ≤ (i 0).val ∧ (i 0).val < win1_2.index ⟨(i 0).val / 10000, ht⟩ (0 : Fin 2) * 10000 + 10000
    rw [e20]; show (i 0).val / 10000 * 10000 ≤ (i 0).val ∧ (i 0).val < (i 0).val / 10000 * 10000 + 10000; omega
  | ⟨1, _⟩ =>
    show win1_2.index ⟨(i 0).val / 10000, ht⟩ (1 : Fin 2) * 16 ≤ (i 1).val ∧ (i 1).val < win1_2.index ⟨(i 0).val / 10000, ht⟩ (1 : Fin 2) * 16 + 16
    rw [e21]; omega

/-- The output array after the region: the whole scaling of the two arrays the region finds. -/
theorem value (c : Dev nD) : (dat1 V c).arrAt 2 cfg1.N = whole (V c main_v37) (V c main_v38) :=
  (dat1 V c).arrAt_eq_of_cover 2 (whole (V c main_v37) (V c main_v38)) (fun t _ => flushed_eq V c t) covered

end Cert.KernelIdeal.Scale16

end
-- ==== Proof.BiasRectify16.lean ====
/-
  The third kernel region: the bias row b₁ added to every node's 16 summed features, then max(·, 0), ten blocks of
  10000 nodes at a time.

  A grid point t reads rows 10000·t … of the sums and the whole bias row, spreads the row over the block, adds, and
  takes the maximum with 0. An entry (r, q) of a block is max(a(r, q) + b₁(q), 0), that entry of the whole rowwise
  operation; the ten blocks tile the 100000 rows.
-/
import proofs.«167111_j28578712387811_2_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

namespace Cert.KernelIdeal.BiasRectify16

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem origin2 : (![0, 0] : Fin 2 → Nat) = fun _ => 0 := funext fun a => by fin_cases a <;> rfl

/-- max(a(r, q) + b(q), 0) at every entry. -/
def whole (a : FVec Ideal S100000x16 .f32) (b : FVec Ideal S16 .f32) : FVec Ideal S100000x16 .f32 :=
  fun i => FloatOps.maximumf (FloatOps.addf (a i) (b (ix1 (i 1)))) (Scalar.ofBits .f32 0x00000000#32)

/-- A row of 16 numbers read as a 1 × 16 array and spread over 10000 rows has, at (r, q), the row's q-th number. -/
theorem row_spread (x1 : FVec Ideal S16 .f32) (j : S10000x16.Idx) :
    broadcastTo S10000x16 (shapeCast S1x16 x1 shapeCasts_S16_S1x16) broadcasts_S1x16_S10000x16 j = x1 (ix1 (j 1)) := by
  refine (broadcastTo_apply _ broadcasts_S1x16_S10000x16 j (ix2 (0 : Fin 1) (j 1)) fun ax => ?_).trans ?_
  · match ax with
    | ⟨0, _⟩ => rfl
    | ⟨1, _⟩ => rfl
  · refine (shapeCast_addUnit_apply ![16] x1 shapeCasts_S16_S1x16 (ix2 (0 : Fin 1) (j 1))).trans (congrArg x1 ?_)
    funext a
    match a with
    | ⟨0, _⟩ => rfl

/-- An entry of one block: the body's arithmetic at an index. -/
theorem block_apply (x0 : FVec Ideal S10000x16 .f32) (x1 : FVec Ideal S16 .f32) (j : S10000x16.Idx) :
    k2_pay1 (F := Ideal) x0 x1 j = FloatOps.maximumf (FloatOps.addf (x0 j) (x1 (ix1 (j 1)))) (Scalar.ofBits .f32 0x00000000#32) := by
  unfold k2_pay1
  show FloatOps.maximumf (FloatOps.addf (shapeCast S10000x16 x0 shapeCasts_S10000x16_S10000x16 j)
      (broadcastTo S10000x16 (shapeCast S1x16 x1 shapeCasts_S16_S1x16) broadcasts_S1x16_S10000x16 j))
      (broadcast S10000x16 (Scalar.ofBits (F := Ideal) .f32 0x00000000#32) j) = _
  rw [shapeCast_self, row_spread]
  rfl

/-- The printed index maps over the grid: the row blocks of the sums and of the output move with the point, the bias stays. -/
theorem index_facts : ∀ t : Fin cfg2.N, win2_0.index t (0 : Fin 2) = t.val ∧ win2_0.index t (1 : Fin 2) = 0
    ∧ win2_1.index t (0 : Fin 1) = 0
    ∧ win2_2.index t (0 : Fin 2) = t.val ∧ win2_2.index t (1 : Fin 2) = 0 :=
  (by decide +kernel : ∀ t : Fin grid2.N, _)

theorem origin1 : (![0] : Fin 1 → Nat) = fun _ => 0 := funext fun a => by fin_cases a; rfl

/-- What point t writes back is block t of the whole operation on the arrays the region finds. -/
theorem flushed_eq (c : Dev nD) (t : Fin cfg2.N) :
    (dat2 V c).flushed 2 t = ((cfg2.win 2).blk t).view.read (Elt Ideal) (whole (V c main_v42) (V c main_arg3)) := by
  show (cfg2.win 2).cut (grid2.coords t) ((dat2 V c).after 2 t) = _
  rw [after2_2]
  unfold out2_2
  rw [View.canon_unit_zero origin2]
  simp only [View.ld_unit_zero (S := S10000x16) origin2, View.ld_unit_zero (S := S16) origin1]
  obtain ⟨e00, e01, e10, e20, e21⟩ := index_facts t
  funext j
  show k2_pay1 (F := Ideal) (iblk2 V c 0 t) (iblk2 V c 1 t) j = whole (V c main_v42) (V c main_arg3) (((cfg2.win 2).blk t).view.emb j)
  refine (block_apply _ _ j).trans ?_
  have h0 : ((cfg2.win 0).blk t).view.emb j = ((cfg2.win 2).blk t).view.emb j := by
    funext a; apply Fin.ext
    match a with
    | ⟨0, _⟩ => show win2_0.index t (0 : Fin 2) * 10000 + 1 * (j 0).val = win2_2.index t (0 : Fin 2) * 10000 + 1 * (j 0).val; omega
    | ⟨1, _⟩ => show win2_0.index t (1 : Fin 2) * 16 + 1 * (j 1).val = win2_2.index t (1 : Fin 2) * 16 + 1 * (j 1).val; omega
  have h1 : ((cfg2.win 1).blk t).view.emb (ix1 (j 1)) = ix1 ((((cfg2.win 2).blk t).view.emb j) 1) := by
    funext a; apply Fin.ext
    match a with
    | ⟨0, _⟩ => show win2_1.index t (0 : Fin 1) * 16 + 1 * (j 1).val = win2_2.index t (1 : Fin 2) * 16 + 1 * (j 1).val; omega
  exact congrArg₂ (fun a b : Ideal .f32 => FloatOps.maximumf (FloatOps.addf a b) (Scalar.ofBits .f32 0x00000000#32))
    (congrArg (V c main_v42 : FVec Ideal S100000x16 .f32) h0) (congrArg (V c main_arg3 : FVec Ideal S16 .f32) h1)

/-- An index of the output is in point t's block iff each coordinate is in the block's range. -/
theorem mem_blk (t : Fin cfg2.N) (i : S100000x16.Idx) :
    i ∈ ((cfg2.win 2).blk t).view.set ↔ ∀ a : Fin 2, win2_2.index t a * S10000x16.size a ≤ (i a).val ∧ (i a).val < win2_2.index t a * S10000x16.size a + S10000x16.size a := by
  show i ∈ ((View.whole main_v43).slice (win2_2.rect t)).set ↔ _
  rw [View.set_slice_whole, Rect.mem_set_unit]
  exact Iff.rfl

/-- Every row of the output lies in the block of the point numbered row / 10000. -/
theorem covered (i : S100000x16.Idx) : ∃ t : Fin cfg2.N, (cfg2.win 2).flush t = true ∧ i ∈ ((cfg2.win 2).blk t).view.set := by
  have hi0 : (i 0).val < 100000 := (i 0).isLt
  have hi1 : (i 1).val < 16 := (i 1).isLt
  have hN : cfg2.N = 10 := N_2
  have ht : (i 0).val / 10000 < cfg2.N := by rw [hN]; omega
  obtain ⟨-, -, -, e20, e21⟩ := index_facts ⟨(i 0).val / 10000, ht⟩
  refine ⟨⟨(i 0).val / 10000, ht⟩, flush2_2 _, ?_⟩
  rw [mem_blk]
  intro a
  match a with
  | ⟨0, _⟩ =>
    show win2_2.index ⟨(i 0).val / 10000, ht⟩ (0 : Fin 2) * 10000 ≤ (i 0).val ∧ (i 0).val < win2_2.index ⟨(i 0).val / 10000, ht⟩ (0 : Fin 2) * 10000 + 10000
    rw [e20]; show (i 0).val / 10000 * 10000 ≤ (i 0).val ∧ (i 0).val < (i 0).val / 10000 * 10000 + 10000; omega
  | ⟨1, _⟩ =>
    show win2_2.index ⟨(i 0).val / 10000, ht⟩ (1 : Fin 2) * 16 ≤ (i 1).val ∧ (i 1).val < win2_2.index ⟨(i 0).val / 10000, ht⟩ (1 : Fin 2) * 16 + 16
    rw [e21]; omega

/-- The output array after the region: the whole operation on the two arrays the region finds. -/
theorem value (c : Dev nD) : (dat2 V c).arrAt 2 cfg2.N = whole (V c main_v42) (V c main_arg3) :=
  (dat2 V c).arrAt_eq_of_cover 2 (whole (V c main_v42) (V c main_arg3)) (fun t _ => flushed_eq V c t) covered

end Cert.KernelIdeal.BiasRectify16

end
-- ==== Proof.Product1.lean ====
/-
  The fourth kernel region: h · W₂ for the hidden features h and the 16 × 1 matrix W₂, ten blocks of 10000 rows at a time.

  As for the first product: an entry (r, 0) of a block is the sum over k of h(r, k) · W₂(k, 0), the entry of the whole
  product at that row, and the ten blocks tile the 100000 rows.
-/
import proofs.«167111_j28578712387811_2_alg».proof.Proof.Gen.KernelIdeal.Frame
import proofs.«167111_j28578712387811_2_alg».proof.Proof.LibPlainDot
import Idealize.ShloMosaic.Lib.Pipeline.Value
import Idealize.ShloMosaic.Lib.ValueIdx
import Idealize.ShloMosaic.PureOps.Ideal.Laws

set_option maxRecDepth 16384

noncomputable section

namespace Cert.KernelIdeal.Product1

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem origin2 : (![0, 0] : Fin 2 → Nat) = fun _ => 0 := funext fun a => by fin_cases a <;> rfl

/-- h · w for a 100000 × 16 array and a 16 × 1 matrix: the host's product. -/
def whole (x : FVec Ideal S100000x16 .f32) (w : FVec Ideal S16x1 .f32) : FVec Ideal S100000x1 .f32 :=
  Host.dotGeneral (F := Ideal) (DotDims.plain 100000 16 1) none x w

/-- An entry of the whole product. -/
theorem whole_apply (x : FVec Ideal S100000x16 .f32) (w : FVec Ideal S16x1 .f32) (i : S100000x1.Idx) :
    whole x w i = ∑ k : Fin 16, x (ix2 (i 0) k) * w (ix2 k (i 1)) := by
  unfold whole
  simp only [Host.dotGeneral]
  exact Cert.LibPlainDot.plain_dotGeneral_apply (M := 100000) (K := 16) (N := 1) none _ x w i

/-- An entry of one block's product: the body's arithmetic at an index. -/
theorem block_apply (x0 : Vec Ideal S10000x16 .f32) (x1 : Vec Ideal S16x1 .f32) (j : S10000x1.Idx) :
    k3_pay1 (F := Ideal) x0 x1 j = ∑ k : Fin 16, x0 (ix2 (j 0) k) * x1 (ix2 k (j 1)) := by
  unfold k3_pay1
  show FloatOps.matmul (DotDims.plain 10000 16 1) none (shapeCast S10000x16 x0 shapeCasts_S10000x16_S10000x16) x1
      (constant (F := Ideal) S10000x1 .f32 0x00000000#32) j = _
  rw [shapeCast_self]
  exact Cert.LibPlainDot.plain_matmul_apply (M := 10000) (K := 16) (N := 1) none x0 x1 j

/-- The printed index maps over the grid: the row blocks of h and of the output move with the point, the matrix stays. -/
theorem index_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- What point t writes back is block t of the whole product of the arrays the region finds. -/
theorem flushed_eq (c : Dev nD) (t : Fin cfg3.N) :
    (dat3 V c).flushed 2 t = ((cfg3.win 2).blk t).view.read (Elt Ideal) (whole (V c main_v43) (V c main_arg4)) := by
  show (cfg3.win 2).cut (grid3.coords t) ((dat3 V c).after 2 t) = _
  rw [after3_2]
  unfold out3_2
  rw [View.canon_unit_zero origin2]
  simp only [View.ld_unit_zero (S := S10000x16) origin2, View.ld_unit_zero (S := S16x1) origin2]
  obtain ⟨e00, e01, e10, e11, e20, e21⟩ := index_facts t
  funext j
  show k3_pay1 (F := Ideal) (iblk3 V c 0 t) (iblk3 V c 1 t) j = whole (V c main_v43) (V c main_arg4) (((cfg3.win 2).blk t).view.emb j)
  refine (block_apply _ _ j).trans ((whole_apply _ _ _).trans ?_).symm
  refine Finset.sum_congr rfl fun k _ => ?_
  have h0 : ((cfg3.win 0).blk t).view.emb (ix2 (j 0) k) = ix2 ((((cfg3.win 2).blk t).view.emb j) 0) k := by
    funext a; apply Fin.ext
    match a with
    | ⟨0, _⟩ => show win3_0.index t (0 : Fin 2) * 10000 + 1 * (j 0).val = win3_2.index t (0 : Fin 2) * 10000 + 1 * (j 0).val; omega
    | ⟨1, _⟩ => show win3_0.index t (1 : Fin 2) * 16 + 1 * k.val = k.val; omega
  have h1 : ((cfg3.win 1).blk t).view.emb (ix2 k (j 1)) = ix2 k ((((cfg3.win 2).blk t).view.emb j) 1) := by
    funext a; apply Fin.ext
    match a with
    | ⟨0, _⟩ => show win3_1.index t (0 : Fin 2) * 16 + 1 * k.val = k.val; omega
    | ⟨1, _⟩ => show win3_1.index t (1 : Fin 2) * 1 + 1 * (j 1).val = win3_2.index t (1 : Fin 2) * 1 + 1 * (j 1).val; omega
  exact congrArg₂ (fun a b : Ideal .f32 => a * b)
    (congrArg (V c main_v43 : FVec Ideal S100000x16 .f32) h0.symm) (congrArg (V c main_arg4 : FVec Ideal S16x1 .f32) h1.symm)

/-- An index of the output is in point t's block iff each coordinate is in the block's range. -/
theorem mem_blk (t : Fin cfg3.N) (i : S100000x1.Idx) :
    i ∈ ((cfg3.win 2).blk t).view.set ↔ ∀ a : Fin 2, win3_2.index t a * S10000x1.size a ≤ (i a).val ∧ (i a).val < win3_2.index t a * S10000x1.size a + S10000x1.size a := by
  show i ∈ ((View.whole main_v44).slice (win3_2.rect t)).set ↔ _
  rw [View.set_slice_whole, Rect.mem_set_unit]
  exact Iff.rfl

/-- Every row of the output lies in the block of the point numbered row / 10000. -/
theorem covered (i : S100000x1.Idx) : ∃ t : Fin cfg3.N, (cfg3.win 2).flush t = true ∧ i ∈ ((cfg3.win 2).blk t).view.set := by
  have hi0 : (i 0).val < 100000 := (i 0).isLt
  have hi1 : (i 1).val < 1 := (i 1).isLt
  have hN : cfg3.N = 10 := N_3
  have ht : (i 0).val / 10000 < cfg3.N := by rw [hN]; omega
  obtain ⟨-, -, -, -, e20, e21⟩ := index_facts ⟨(i 0).val / 10000, ht⟩
  refine ⟨⟨(i 0).val / 10000, ht⟩, flush3_2 _, ?_⟩
  rw [mem_blk]
  intro a
  match a with
  | ⟨0, _⟩ =>
    show win3_2.index ⟨(i 0).val / 10000, ht⟩ (0 : Fin 2) * 10000 ≤ (i 0).val ∧ (i 0).val < win3_2.index ⟨(i 0).val / 10000, ht⟩ (0 : Fin 2) * 10000 + 10000
    rw [e20]; show (i 0).val / 10000 * 10000 ≤ (i 0).val ∧ (i 0).val < (i 0).val / 10000 * 10000 + 10000; omega
  | ⟨1, _⟩ =>
    show win3_2.index ⟨(i 0).val / 10000, ht⟩ (1 : Fin 2) * 1 ≤ (i 1).val ∧ (i 1).val < win3_2.index ⟨(i 0).val / 10000, ht⟩ (1 : Fin 2) * 1 + 1
    rw [e21]; omega

/-- The output array after the region: the whole product of the two arrays the region finds. -/
theorem value (c : Dev nD) : (dat3 V c).arrAt 2 cfg3.N = whole (V c main_v43) (V c main_arg4) :=
  (dat3 V c).arrAt_eq_of_cover 2 (whole (V c main_v43) (V c main_arg4)) (fun t _ => flushed_eq V c t) covered

end Cert.KernelIdeal.Product1

end
-- ==== Proof.Scale1.lean ====
/-
  The fifth kernel region: every one-feature message scaled by its weight, 330 blocks of 10000 messages at a time.

  Both operands and the output are columns; a grid point multiplies rows 10000·t … entry by entry, and the 330 blocks
  tile the 3300000 rows, so the output is the entrywise product of the two columns.
-/
import proofs.«167111_j28578712387811_2_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

namespace Cert.KernelIdeal.Scale1

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem origin2 : (![0, 0] : Fin 2 → Nat) = fun _ => 0 := funext fun a => by fin_cases a <;> rfl

/-- The entrywise product of two columns. -/
def whole (a : FVec Ideal S3300000x1 .f32) (n : FVec Ideal S3300000x1 .f32) : FVec Ideal S3300000x1 .f32 :=
  fun i => FloatOps.mulf (a i) (n i)

/-- An entry of one block: the body's arithmetic at an index. -/
theorem block_apply (x0 : FVec Ideal S10000x1 .f32) (x1 : FVec Ideal S10000x1 .f32) (j : S10000x1.Idx) :
    k4_pay1 (F := Ideal) x0 x1 j = FloatOps.mulf (x0 j) (x1 j) := by
  unfold k4_pay1
  show FloatOps.mulf (shapeCast S10000x1 x0 shapeCasts_S10000x1_S10000x1 j) (shapeCast S10000x1 x1 shapeCasts_S10000x1_S10000x1 j) = _
  rw [shapeCast_self, shapeCast_self]

/-- The printed index maps over the grid: all three windows' row blocks move with the point. -/
theorem index_facts : ∀ t : Fin cfg4.N, win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0 :=
  (by decide +kernel : ∀ t : Fin grid4.N, _)

/-- What point t writes back is block t of the entrywise product of the arrays the region finds. -/
theorem flushed_eq (c : Dev nD) (t : Fin cfg4.N) :
    (dat4 V c).flushed 2 t = ((cfg4.win 2).blk t).view.read (Elt Ideal) (whole (V c main_v51) (V c main_v52)) := by
  show (cfg4.win 2).cut (grid4.coords t) ((dat4 V c).after 2 t) = _
  rw [after4_2]
  unfold out4_2
  rw [View.canon_unit_zero origin2]
  simp only [View.ld_unit_zero (S := S10000x1) origin2]
  obtain ⟨e00, e01, e10, e11, e20, e21⟩ := index_facts t
  funext j
  show k4_pay1 (F := Ideal) (iblk4 V c 0 t) (iblk4 V c 1 t) j = whole (V c main_v51) (V c main_v52) (((cfg4.win 2).blk t).view.emb j)
  refine (block_apply _ _ j).trans ?_
  have h0 : ((cfg4.win 0).blk t).view.emb j = ((cfg4.win 2).blk t).view.emb j := by
    funext a; apply Fin.ext
    match a with
    | ⟨0, _⟩ => show win4_0.index t (0 : Fin 2) * 10000 + 1 * (j 0).val = win4_2.index t (0 : Fin 2) * 10000 + 1 * (j 0).val; omega
    | ⟨1, _⟩ => show win4_0.index t (1 : Fin 2) * 1 + 1 * (j 1).val = win4_2.index t (1 : Fin 2) * 1 + 1 * (j 1).val; omega
  have h1 : ((cfg4.win 1).blk t).view.emb j = ((cfg4.win 2).blk t).view.emb j := by
    funext a; apply Fin.ext
    match a with
    | ⟨0, _⟩ => show win4_1.index t (0 : Fin 2) * 10000 + 1 * (j 0).val = win4_2.index t (0 : Fin 2) * 10000 + 1 * (j 0).val; omega
    | ⟨1, _⟩ => show win4_1.index t (1 : Fin 2) * 1 + 1 * (j 1).val = win4_2.index t (1 : Fin 2) * 1 + 1 * (j 1).val; omega
  exact congrArg₂ (fun a b : Ideal .f32 => FloatOps.mulf a b)
    (congrArg (V c main_v51 : FVec Ideal S3300000x1 .f32) h0) (congrArg (V c main_v52 : FVec Ideal S3300000x1 .f32) h1)

/-- An index of the output is in point t's block iff each coordinate is in the block's range. -/
theorem mem_blk (t : Fin cfg4.N) (i : S3300000x1.Idx) :
    i ∈ ((cfg4.win 2).blk t).view.set ↔ ∀ a : Fin 2, win4_2.index t a * S10000x1.size a ≤ (i a).val ∧ (i a).val < win4_2.index t a * S10000x1.size a + S10000x1.size a := by
  show i ∈ ((View.whole main_v53).slice (win4_2.rect t)).set ↔ _
  rw [View.set_slice_whole, Rect.mem_set_unit]
  exact Iff.rfl

/-- Every row of the output lies in the block of the point numbered row / 10000. -/
theorem covered (i : S3300000x1.Idx) : ∃ t : Fin cfg4.N, (cfg4.win 2).flush t = true ∧ i ∈ ((cfg4.win 2).blk t).view.set := by
  have hi0 : (i 0).val < 3300000 := (i 0).isLt
  have hi1 : (i 1).val < 1 := (i 1).isLt
  have hN : cfg4.N = 330 := N_4
  have ht : (i 0).val / 10000 < cfg4.N := by rw [hN]; omega
  obtain ⟨-, -, -, -, e20, e21⟩ := index_facts ⟨(i 0).val / 10000, ht⟩
  refine ⟨⟨(i 0).val / 10000, ht⟩, flush4_2 _, ?_⟩
  rw [mem_blk]
  intro a
  match a with
  | ⟨0, _⟩ =>
    show win4_2.index ⟨(i 0).val / 10000, ht⟩ (0 : Fin 2) * 10000 ≤ (i 0).val ∧ (i 0).val < win4_2.index ⟨(i 0).val / 10000, ht⟩ (0 : Fin 2) * 10000 + 10000
    rw [e20]; show (i 0).val / 10000 * 10000 ≤ (i 0).val ∧ (i 0).val < (i 0).val / 10000 * 10000 + 10000; omega
  | ⟨1, _⟩ =>
    show win4_2.index ⟨(i 0).val / 10000, ht⟩ (1 : Fin 2) * 1 ≤ (i 1).val ∧ (i 1).val < win4_2.index ⟨(i 0).val / 10000, ht⟩ (1 : Fin 2) * 1 + 1
    rw [e21]; omega

/-- The output array after the region: the entrywise product of the two arrays the region finds. -/
theorem value (c : Dev nD) : (dat4 V c).arrAt 2 cfg4.N = whole (V c main_v51) (V c main_v52) :=
  (dat4 V c).arrAt_eq_of_cover 2 (whole (V c main_v51) (V c main_v52)) (fun t _ => flushed_eq V c t) covered

end Cert.KernelIdeal.Scale1

end
-- ==== Proof.Bias1.lean ====
/-
  The sixth kernel region: the bias b₂ added to every node's summed feature, ten blocks of 10000 nodes at a time.

  A grid point t reads rows 10000·t … of the sums and the one bias number, spreads it over the block and adds. An
  entry (r, 0) of a block is a(r, 0) + b₂, that entry of the whole operation; the ten blocks tile the 100000 rows.
-/
import proofs.«167111_j28578712387811_2_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

namespace Cert.KernelIdeal.Bias1

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem origin2 : (![0, 0] : Fin 2 → Nat) = fun _ => 0 := funext fun a => by fin_cases a <;> rfl

/-- a(r, 0) + b at every entry. -/
def whole (a : FVec Ideal S100000x1 .f32) (b : FVec Ideal S1 .f32) : FVec Ideal S100000x1 .f32 :=
  fun i => FloatOps.addf (a i) (b (ix1 (0 : Fin 1)))

/-- One number read as a 1 × 1 array and spread over 10000 rows is that number everywhere. -/
theorem spread (x1 : FVec Ideal S1 .f32) (j : S10000x1.Idx) :
    broadcastTo S10000x1 (shapeCast S1x1 x1 shapeCasts_S1_S1x1) broadcasts_S1x1_S10000x1 j = x1 (ix1 (0 : Fin 1)) := by
  refine (broadcastTo_apply _ broadcasts_S1x1_S10000x1 j (ix2 (0 : Fin 1) (0 : Fin 1)) fun ax => ?_).trans ?_
  · match ax with
    | ⟨0, _⟩ => rfl
    | ⟨1, _⟩ => rfl
  · refine (shapeCast_addUnit_apply ![1] x1 shapeCasts_S1_S1x1 (ix2 (0 : Fin 1) (0 : Fin 1))).trans (congrArg x1 ?_)
    funext a
    match a with
    | ⟨0, _⟩ => rfl

/-- An entry of one block: the body's arithmetic at an index. -/
theorem block_apply (x0 : FVec Ideal S10000x1 .f32) (x1 : FVec Ideal S1 .f32) (j : S10000x1.Idx) :
    k5_pay1 (F := Ideal) x0 x1 j = FloatOps.addf (x0 j) (x1 (ix1 (0 : Fin 1))) := by
  unfold k5_pay1
  show FloatOps.addf (shapeCast S10000x1 x0 shapeCasts_S10000x1_S10000x1 j)
      (broadcastTo S10000x1 (shapeCast S1x1 x1 shapeCasts_S1_S1x1) broadcasts_S1x1_S10000x1 j) = _
  rw [shapeCast_self, spread]

/-- The printed index maps over the grid: the row blocks of the sums and of the output move with the point, the bias stays. -/
theorem index_facts : ∀ t : Fin cfg5.N, win5_0.index t (0 : Fin 2) = t.val ∧ win5_0.index t (1 : Fin 2) = 0
    ∧ win5_1.index t (0 : Fin 1) = 0
    ∧ win5_2.index t (0 : Fin 2) = t.val ∧ win5_2.index t (1 : Fin 2) = 0 :=
  (by decide +kernel : ∀ t : Fin grid5.N, _)

theorem origin1 : (![0] : Fin 1 → Nat) = fun _ => 0 := funext fun a => by fin_cases a; rfl

/-- What point t writes back is block t of the whole operation on the arrays the region finds. -/
theorem flushed_eq (c : Dev nD) (t : Fin cfg5.N) :
    (dat5 V c).flushed 2 t = ((cfg5.win 2).blk t).view.read (Elt Ideal) (whole (V c main_v56) (V c main_arg5)) := by
  show (cfg5.win 2).cut (grid5.coords t) ((dat5 V c).after 2 t) = _
  rw [after5_2]
  unfold out5_2
  rw [View.canon_unit_zero origin2]
  simp only [View.ld_unit_zero (S := S10000x1) origin2, View.ld_unit_zero (S := S1) origin1]
  obtain ⟨e00, e01, e10, e20, e21⟩ := index_facts t
  funext j
  show k5_pay1 (F := Ideal) (iblk5 V c 0 t) (iblk5 V c 1 t) j = whole (V c main_v56) (V c main_arg5) (((cfg5.win 2).blk t).view.emb j)
  refine (block_apply _ _ j).trans ?_
  have h0 : ((cfg5.win 0).blk t).view.emb j = ((cfg5.win 2).blk t).view.emb j := by
    funext a; apply Fin.ext
    match a with
    | ⟨0, _⟩ => show win5_0.index t (0 : Fin 2) * 10000 + 1 * (j 0).val = win5_2.index t (0 : Fin 2) * 10000 + 1 * (j 0).val; omega
    | ⟨1, _⟩ => show win5_0.index t (1 : Fin 2) * 1 + 1 * (j 1).val = win5_2.index t (1 : Fin 2) * 1 + 1 * (j 1).val; omega
  have h1 : ((cfg5.win 1).blk t).view.emb (ix1 (0 : Fin 1)) = ix1 (0 : Fin 1) := by
    funext a; apply Fin.ext
    match a with
    | ⟨0, _⟩ => show win5_1.index t (0 : Fin 1) * 1 + 1 * 0 = 0; omega
  exact congrArg₂ (fun a b : Ideal .f32 => FloatOps.addf a b)
    (congrArg (V c main_v56 : FVec Ideal S100000x1 .f32) h0) (congrArg (V c main_arg5 : FVec Ideal S1 .f32) h1)

/-- An index of the output is in point t's block iff each coordinate is in the block's range. -/
theorem mem_blk (t : Fin cfg5.N) (i : S100000x1.Idx) :
    i ∈ ((cfg5.win 2).blk t).view.set ↔ ∀ a : Fin 2, win5_2.index t a * S10000x1.size a ≤ (i a).val ∧ (i a).val < win5_2.index t a * S10000x1.size a + S10000x1.size a := by
  show i ∈ ((View.whole main_v57).slice (win5_2.rect t)).set ↔ _
  rw [View.set_slice_whole, Rect.mem_set_unit]
  exact Iff.rfl

/-- Every row of the output lies in the block of the point numbered row / 10000. -/
theorem covered (i : S100000x1.Idx) : ∃ t : Fin cfg5.N, (cfg5.win 2).flush t = true ∧ i ∈ ((cfg5.win 2).blk t).view.set := by
  have hi0 : (i 0).val < 100000 := (i 0).isLt
  have hi1 : (i 1).val < 1 := (i 1).isLt
  have hN : cfg5.N = 10 := N_5
  have ht : (i 0).val / 10000 < cfg5.N := by rw [hN]; omega
  obtain ⟨-, -, -, e20, e21⟩ := index_facts ⟨(i 0).val / 10000, ht⟩
  refine ⟨⟨(i 0).val / 10000, ht⟩, flush5_2 _, ?_⟩
  rw [mem_blk]
  intro a
  match a with
  | ⟨0, _⟩ =>
    show win5_2.index ⟨(i 0).val / 10000, ht⟩ (0 : Fin 2) * 10000 ≤ (i 0).val ∧ (i 0).val < win5_2.index ⟨(i 0).val / 10000, ht⟩ (0 : Fin 2) * 10000 + 10000
    rw [e20]; show (i 0).val / 10000 * 10000 ≤ (i 0).val ∧ (i 0).val < (i 0).val / 10000 * 10000 + 10000; omega
  | ⟨1, _⟩ =>
    show win5_2.index ⟨(i 0).val / 10000, ht⟩ (1 : Fin 2) * 1 ≤ (i 1).val ∧ (i 1).val < win5_2.index ⟨(i 0).val / 10000, ht⟩ (1 : Fin 2) * 1 + 1
    rw [e21]; omega

/-- The output array after the region: the whole operation on the two arrays the region finds. -/
theorem value (c : Dev nD) : (dat5 V c).arrAt 2 cfg5.N = whole (V c main_v56) (V c main_arg5) :=
  (dat5 V c).arrAt_eq_of_cover 2 (whole (V c main_v56) (V c main_arg5)) (fun t _ => flushed_eq V c t) covered

end Cert.KernelIdeal.Bias1

end
-- ==== Proof.LibColumnCast.lean ====
/-
  A vector kept as a column, read at an index given by coordinates: an [a] array cast to [a, 1] reads, at (r, u), the
  entry r, whatever the unit coordinate u. (The keepdims form of a per-row reduction's result; the row counterpart
  [a] → [1, a] is the library's, and this is stated in the same style.)
-/
import Idealize.ShloMosaic.Lib.Pipeline.Value
import Idealize.ShloMosaic.Lib.ValueIdx

namespace Cert.ColumnCast

open Idealize.ShloMosaic Idealize.ShloMosaic.ValueIdx

variable {α : Type}

/-- An `[a]` array cast to `[a, 1]` reads, at `(r, u)`, the operand at `r`: the two indices have the same row-major
    position, `r · 1 + 0`. -/
theorem shapeCast_a_a1_apply {a : ℕ} (x : (⟨1, ![a]⟩ : Shape).Idx → α) (h : (⟨1, ![a]⟩ : Shape).ShapeCasts ⟨2, ![a, 1]⟩)
    (r : Fin a) (u : Fin 1) : shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

end Cert.ColumnCast
-- ==== Proof.StageForms.lean ====
/-
  The six kernel regions' whole-array functions are the corresponding stages of the graph convolution.

  The two products are the host's product over the same dimension numbers. A rowwise scaling by a weight COLUMN obtained
  by reading the weight vector as an n × 1 array is the entrywise product with the weights made a column and spread
  over the features: both read weight r at row r. Adding a bias read as a 1 × d array and spread over the rows is
  adding the bias made a row and spread over the rows, and the zero the first layer takes the maximum with is the zero
  constant spread over the array.
-/
import proofs.«167111_j28578712387811_2_alg».proof.Proof.GcnStages
import proofs.«167111_j28578712387811_2_alg».proof.Proof.Product16
import proofs.«167111_j28578712387811_2_alg».proof.Proof.Scale16
import proofs.«167111_j28578712387811_2_alg».proof.Proof.BiasRectify16
import proofs.«167111_j28578712387811_2_alg».proof.Proof.Product1
import proofs.«167111_j28578712387811_2_alg».proof.Proof.Scale1
import proofs.«167111_j28578712387811_2_alg».proof.Proof.Bias1
import proofs.«167111_j28578712387811_2_alg».proof.Proof.LibColumnCast

set_option maxRecDepth 16384

noncomputable section

namespace Cert.KernelIdeal.StageForms

open Cert.KernelIdeal Cert.KernelIdeal.Gen
open Idealize.ShloMosaic Idealize.ShloMosaic.ValueIdx

/-- The first region's product is the first layer's projection. -/
theorem product16_form (x : FVec Ideal S100000x16 .f32) (w : FVec Ideal S16x16 .f32) :
    Product16.whole x w = Cert.GcnStages.projected16 (F := Ideal) x w := rfl

/-- The fourth region's product is the second layer's projection. -/
theorem product1_form (x : FVec Ideal S100000x16 .f32) (w : FVec Ideal S16x1 .f32) :
    Product1.whole x w = Cert.GcnStages.projected1 (F := Ideal) x w := rfl

/-- A weight vector made a column and then spread over 16 features reads, at (r, q), weight r. -/
theorem weight_spread16 (n : FVec Ideal S3300000 .f32) (r : Fin 3300000) (q : Fin 16) :
    broadcastInDim Cert.ReferenceIdeal.S3300000x16 ![0, 1] Cert.ReferenceIdeal.Gen.bcast_S3300000x1_S3300000x16_0_1
      (broadcastInDim Cert.ReferenceIdeal.S3300000x1 ![0] Cert.ReferenceIdeal.Gen.bcast_S3300000_S3300000x1_0 n) (ix2 r q) = n (ix1 r) := by
  refine (broadcastInDim_apply ![0, 1] _ _ (ix2 r q) (ix2 r (0 : Fin 1)) fun ax => ?_).trans
    (broadcastInDim_apply ![0] _ n (ix2 r (0 : Fin 1)) (ix1 r) fun ax => ?_)
  · match ax with
    | ⟨0, _⟩ => show r.val = if (3300000 : ℕ) = 1 then 0 else r.val; rw [if_neg (by omega)]
    | ⟨1, _⟩ => show (0 : ℕ) = if (1 : ℕ) = 1 then 0 else q.val; rw [if_pos rfl]
  · match ax with
    | ⟨0, _⟩ => show r.val = if (3300000 : ℕ) = 1 then 0 else r.val; rw [if_neg (by omega)]

/-- A weight vector made a column reads, at (r, 0), weight r. -/
theorem weight_column (n : FVec Ideal S3300000 .f32) (r : Fin 3300000) (u : Fin 1) :
    broadcastInDim Cert.ReferenceIdeal.S3300000x1 ![0] Cert.ReferenceIdeal.Gen.bcast_S3300000_S3300000x1_0 n (ix2 r u) = n (ix1 r) := by
  refine broadcastInDim_apply ![0] _ n (ix2 r u) (ix1 r) fun ax => ?_
  match ax with
  | ⟨0, _⟩ => show r.val = if (3300000 : ℕ) = 1 then 0 else r.val; rw [if_neg (by omega)]

/-- The second region's scaling, fed the weight vector read as a column, is the stage that scales 16-feature rows. -/
theorem scale16_form (a : FVec Ideal S3300000x16 .f32) (n : FVec Ideal S3300000 .f32) :
    Scale16.whole a (shapeCast S3300000x1 n shapeCasts_S3300000_S3300000x1) = Cert.GcnStages.scaled16 (F := Ideal) a n := by
  funext i
  obtain ⟨r, q, rfl⟩ : ∃ (r : Fin 3300000) (q : Fin 16), i = ix2 r q := ⟨i 0, i 1, eq_ix2 i⟩
  show FloatOps.mulf (a (ix2 r q)) (shapeCast S3300000x1 n shapeCasts_S3300000_S3300000x1 (ix2 r (0 : Fin 1)))
    = FloatOps.mulf (a (ix2 r q)) (broadcastInDim Cert.ReferenceIdeal.S3300000x16 ![0, 1] Cert.ReferenceIdeal.Gen.bcast_S3300000x1_S3300000x16_0_1
      (broadcastInDim Cert.ReferenceIdeal.S3300000x1 ![0] Cert.ReferenceIdeal.Gen.bcast_S3300000_S3300000x1_0 n) (ix2 r q))
  rw [weight_spread16, Cert.ColumnCast.shapeCast_a_a1_apply (a := 3300000) n shapeCasts_S3300000_S3300000x1 r 0]

/-- The fifth region's scaling, fed the weight vector read as a column, is the stage that scales one-feature rows. -/
theorem scale1_form (a : FVec Ideal S3300000x1 .f32) (n : FVec Ideal S3300000 .f32) :
    Scale1.whole a (shapeCast S3300000x1 n shapeCasts_S3300000_S3300000x1) = Cert.GcnStages.scaled1 (F := Ideal) a n := by
  funext i
  obtain ⟨r, u, rfl⟩ : ∃ (r : Fin 3300000) (u : Fin 1), i = ix2 r u := ⟨i 0, i 1, eq_ix2 i⟩
  show FloatOps.mulf (a (ix2 r u)) (shapeCast S3300000x1 n shapeCasts_S3300000_S3300000x1 (ix2 r u))
    = FloatOps.mulf (a (ix2 r u)) (broadcastInDim Cert.ReferenceIdeal.S3300000x1 ![0] Cert.ReferenceIdeal.Gen.bcast_S3300000_S3300000x1_0 n (ix2 r u))
  rw [weight_column, Cert.ColumnCast.shapeCast_a_a1_apply (a := 3300000) n shapeCasts_S3300000_S3300000x1 r u]

/-- A bias of 16 numbers made a 1 × 16 row and spread over the nodes reads, at (r, q), the q-th number. -/
theorem bias_spread16 (b : FVec Ideal S16 .f32) (r : Fin 100000) (q : Fin 16) :
    broadcastInDim Cert.ReferenceIdeal.S100000x16 ![0, 1] Cert.ReferenceIdeal.Gen.bcast_S1x16_S100000x16_0_1
      (broadcastInDim Cert.ReferenceIdeal.S1x16 ![1] Cert.ReferenceIdeal.Gen.bcast_S16_S1x16_1 b) (ix2 r q) = b (ix1 q) := by
  refine (broadcastInDim_apply ![0, 1] _ _ (ix2 r q) (ix2 (0 : Fin 1) q) fun ax => ?_).trans
    (broadcastInDim_apply ![1] _ b (ix2 (0 : Fin 1) q) (ix1 q) fun ax => ?_)
  · match ax with
    | ⟨0, _⟩ => show (0 : ℕ) = if (1 : ℕ) = 1 then 0 else r.val; rw [if_pos rfl]
    | ⟨1, _⟩ => show q.val = if (16 : ℕ) = 1 then 0 else q.val; rw [if_neg (by omega)]
  · match ax with
    | ⟨0, _⟩ => show q.val = if (16 : ℕ) = 1 then 0 else q.val; rw [if_neg (by omega)]

/-- The third region's bias-and-maximum is the first layer's bias stage. -/
theorem biasRectify16_form (a : FVec Ideal S100000x16 .f32) (b : FVec Ideal S16 .f32) :
    BiasRectify16.whole a b = Cert.GcnStages.biasedRectified (F := Ideal) a b := by
  funext i
  obtain ⟨r, q, rfl⟩ : ∃ (r : Fin 100000) (q : Fin 16), i = ix2 r q := ⟨i 0, i 1, eq_ix2 i⟩
  show FloatOps.maximumf (FloatOps.addf (a (ix2 r q)) (b (ix1 q))) (Scalar.ofBits .f32 0x00000000#32)
    = FloatOps.maximumf (FloatOps.addf (a (ix2 r q)) (broadcastInDim Cert.ReferenceIdeal.S100000x16 ![0, 1] Cert.ReferenceIdeal.Gen.bcast_S1x16_S100000x16_0_1
        (broadcastInDim Cert.ReferenceIdeal.S1x16 ![1] Cert.ReferenceIdeal.Gen.bcast_S16_S1x16_1 b) (ix2 r q))) (Scalar.ofBits .f32 0x00000000#32)
  rw [bias_spread16]

/-- A bias of one number made a 1 × 1 array and spread over the nodes is that number everywhere. -/
theorem bias_spread1 (b : FVec Ideal S1 .f32) (r : Fin 100000) (u : Fin 1) :
    broadcastInDim Cert.ReferenceIdeal.S100000x1 ![0, 1] Cert.ReferenceIdeal.Gen.bcast_S1x1_S100000x1_0_1
      (broadcastInDim Cert.ReferenceIdeal.S1x1 ![1] Cert.ReferenceIdeal.Gen.bcast_S1_S1x1_1 b) (ix2 r u) = b (ix1 (0 : Fin 1)) := by
  refine (broadcastInDim_apply ![0, 1] _ _ (ix2 r u) (ix2 (0 : Fin 1) (0 : Fin 1)) fun ax => ?_).trans
    (broadcastInDim_apply ![1] _ b (ix2 (0 : Fin 1) (0 : Fin 1)) (ix1 (0 : Fin 1)) fun ax => ?_)
  · match ax with
    | ⟨0, _⟩ => show (0 : ℕ) = if (1 : ℕ) = 1 then 0 else r.val; rw [if_pos rfl]
    | ⟨1, _⟩ => show (0 : ℕ) = if (1 : ℕ) = 1 then 0 else u.val; rw [if_pos rfl]
  · match ax with
    | ⟨0, _⟩ => show (0 : ℕ) = if (1 : ℕ) = 1 then 0 else (0 : ℕ); rw [if_pos rfl]

/-- The sixth region's bias is the second layer's bias stage. -/
theorem bias1_form (a : FVec Ideal S100000x1 .f32) (b : FVec Ideal S1 .f32) :
    Bias1.whole a b = Cert.GcnStages.biased1 (F := Ideal) a b := by
  funext i
  obtain ⟨r, u, rfl⟩ : ∃ (r : Fin 100000) (u : Fin 1), i = ix2 r u := ⟨i 0, i 1, eq_ix2 i⟩
  show FloatOps.addf (a (ix2 r u)) (b (ix1 (0 : Fin 1)))
    = FloatOps.addf (a (ix2 r u)) (broadcastInDim Cert.ReferenceIdeal.S100000x1 ![0, 1] Cert.ReferenceIdeal.Gen.bcast_S1x1_S100000x1_0_1
        (broadcastInDim Cert.ReferenceIdeal.S1x1 ![1] Cert.ReferenceIdeal.Gen.bcast_S1_S1x1_1 b) (ix2 r u))
  rw [bias_spread1]

end Cert.KernelIdeal.StageForms

end
-- ==== Proof.Boundaries.lean ====
/-
  What the idealized kernel's buffers hold at each boundary between two segments of @main, as stages of the graph
  convolution of the launch contents of the arguments.

  @main alternates stretches of host operations with the six kernel regions. A host stretch computes its results from
  the buffers as the previous boundary left them and leaves every other buffer alone; a region replaces its output array
  by its whole-array function of its input arrays and leaves every buffer that is not one of its three arrays alone. Walking
  the boundaries in order: the message sources and targets and the edge weights after the first stretch; x · W₁; its
  gathered rows and the weights read as a column; the scaled messages; their sums per target; bias and max(·, 0); the
  second product; and the same four steps with one feature, ending in the output read as a vector.
-/
import proofs.«167111_j28578712387811_2_alg».proof.Proof.Gen.KernelIdeal.Frame
import proofs.«167111_j28578712387811_2_alg».proof.Proof.StageForms
import Idealize.ShloMosaic.Lib.StableHlo.Run

set_option maxRecDepth 16384

noncomputable section

namespace Cert.KernelIdeal.Boundaries

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-- The argument arrays as launched: the node features, the edge table, and the two layers' matrices and biases. -/
abbrev argX : FVec Ideal S100000x16 .f32 := m ((c : Thread nD τ).loc main_arg0)
abbrev argE : IVec S2x3200000 32 := m ((c : Thread nD τ).loc main_arg1)
abbrev argW1 : FVec Ideal S16x16 .f32 := m ((c : Thread nD τ).loc main_arg2)
abbrev argB1 : FVec Ideal S16 .f32 := m ((c : Thread nD τ).loc main_arg3)
abbrev argW2 : FVec Ideal S16x1 .f32 := m ((c : Thread nD τ).loc main_arg4)
abbrev argB2 : FVec Ideal S1 .f32 := m ((c : Thread nD τ).loc main_arg5)

/-! ## After the first three stretches: the graph's structure -/

/-- The buffers after the first stretch (sources, targets, degrees, the comparison deg > 0, 1/sqrt(deg)). -/
def afterFirst : Valuation τ sig (Elt Ideal) := StableHlo.after hostOps0 (W0 m ρ c)

/-- The buffers after the second stretch (the choice between 1/sqrt(deg) and 0). -/
def afterSecond : Valuation τ sig (Elt Ideal) := StableHlo.after hostOps0_1 (afterFirst m ρ c)

theorem W3_eq : W3 m ρ c = StableHlo.after hostOps0_2 (afterSecond m ρ c) := rfl

theorem first_v3 : afterFirst m ρ c (Proc.devRef .tc main_v3) = Cert.GcnStages.sources (argE m c) := by
  unfold afterFirst
  after_results_simp <;> rfl

theorem first_v6 : afterFirst m ρ c (Proc.devRef .tc main_v6) = Cert.GcnStages.targets (argE m c) := by
  unfold afterFirst
  after_results_simp <;> rfl

theorem first_v10 : afterFirst m ρ c (Proc.devRef .tc main_v10) = Cert.GcnStages.degree (F := Ideal) (argE m c) := by
  unfold afterFirst
  after_results_simp <;> rfl

theorem first_v12 : afterFirst m ρ c (Proc.devRef .tc main_v12)
    = cmpf (F := Ideal) .ogt (Cert.GcnStages.degree (F := Ideal) (argE m c)) (broadcastInDim S100000 ![] bcast_S_S100000 (constant (F := Ideal) S_ .f32 0x00000000#32)) := by
  unfold afterFirst
  after_results_simp <;> rfl

theorem first_v13 : afterFirst m ρ c (Proc.devRef .tc main_v13) = Host.rsqrt (Cert.GcnStages.degree (F := Ideal) (argE m c)) := by
  unfold afterFirst
  after_results_simp <;> rfl

theorem first_cst2 : afterFirst m ρ c (Proc.devRef .tc main_cst_2) = constant (F := Ideal) S_ .f32 0x00000000#32 := by
  unfold afterFirst
  after_results_simp <;> rfl

theorem second_v14 : afterSecond m ρ c (Proc.devRef .tc main_v14) = Cert.GcnStages.invSqrtDegree (F := Ideal) (argE m c) := by
  unfold afterSecond
  after_results_simp
  rw [first_v12 m ρ c, first_v13 m ρ c, first_cst2 m ρ c]
  have t14 : ∀ X : (⟨S100000, .f32⟩ : BufTy).Contents (Elt Ideal), (TRef.of main_v14 : TRef sig ⟨S100000, .f32⟩).toBuf X = X := fun X => eq_of_heq (cast_heq _ _)
  have o12 : ∀ X, (TRef.of main_v12 : TRef sig ⟨S100000, .i1⟩).ofBuf (Val := Elt Ideal) X = X := fun X => eq_of_heq (cast_heq _ _)
  have o13 : ∀ X, (TRef.of main_v13 : TRef sig ⟨S100000, .f32⟩).ofBuf (Val := Elt Ideal) X = X := fun X => eq_of_heq (cast_heq _ _)
  have t1 : ∀ X : (⟨S100000, .f32⟩ : BufTy).Contents (Elt Ideal), (TRef.of main_call0_v1 : TRef sig ⟨S100000, .f32⟩).toBuf X = X := fun X => eq_of_heq (cast_heq _ _)
  have o1 : ∀ X, (TRef.of main_call0_v1 : TRef sig ⟨S100000, .f32⟩).ofBuf (Val := Elt Ideal) X = X := fun X => eq_of_heq (cast_heq _ _)
  have t0 : ∀ X : (⟨S_, .f32⟩ : BufTy).Contents (Elt Ideal), (TRef.of main_call0_v0 : TRef sig ⟨S_, .f32⟩).toBuf X = X := fun X => eq_of_heq (cast_heq _ _)
  have o0 : ∀ X, (TRef.of main_call0_v0 : TRef sig ⟨S_, .f32⟩).ofBuf (Val := Elt Ideal) X = X := fun X => eq_of_heq (cast_heq _ _)
  have oc : ∀ X, (TRef.of main_cst_2 : TRef sig ⟨S_, .f32⟩).ofBuf (Val := Elt Ideal) X = X := fun X => eq_of_heq (cast_heq _ _)
  simp only [t14, o12, o13, t1, o1, t0, o0, oc]
  unfold Cert.GcnStages.invSqrtDegree
  rfl

theorem second_v3 : afterSecond m ρ c (Proc.devRef .tc main_v3) = Cert.GcnStages.sources (argE m c) := by
  refine Eq.trans ?_ (first_v3 m ρ c)
  unfold afterSecond
  after_results_simp

theorem second_v6 : afterSecond m ρ c (Proc.devRef .tc main_v6) = Cert.GcnStages.targets (argE m c) := by
  refine Eq.trans ?_ (first_v6 m ρ c)
  unfold afterSecond
  after_results_simp

theorem at3_v3 : W3 m ρ c (Proc.devRef .tc main_v3) = Cert.GcnStages.sources (argE m c) := by
  refine Eq.trans ?_ (second_v3 m ρ c)
  rw [W3_eq]
  after_results_simp

theorem at3_v6 : W3 m ρ c (Proc.devRef .tc main_v6) = Cert.GcnStages.targets (argE m c) := by
  refine Eq.trans ?_ (second_v6 m ρ c)
  rw [W3_eq]
  after_results_simp

theorem at3_v29 : W3 m ρ c (Proc.devRef .tc main_v29) = Cert.GcnStages.edgeWeight (F := Ideal) (argE m c) := by
  rw [W3_eq]
  after_results_simp
  rw [second_v14 m ρ c, second_v3 m ρ c, second_v6 m ρ c]
  rfl

theorem at3_arg0 : W3 m ρ c (Proc.devRef .tc main_arg0) = (argX m c) := by
  show StableHlo.after hostOps0_2 (StableHlo.after hostOps0_1 (StableHlo.after hostOps0 (W0 m ρ c))) (Proc.devRef .tc main_arg0) = _
  after_results_simp <;> rfl

theorem at3_arg2 : W3 m ρ c (Proc.devRef .tc main_arg2) = (argW1 m c) := by
  show StableHlo.after hostOps0_2 (StableHlo.after hostOps0_1 (StableHlo.after hostOps0 (W0 m ρ c))) (Proc.devRef .tc main_arg2) = _
  after_results_simp <;> rfl

theorem at3_arg3 : W3 m ρ c (Proc.devRef .tc main_arg3) = (argB1 m c) := by
  show StableHlo.after hostOps0_2 (StableHlo.after hostOps0_1 (StableHlo.after hostOps0 (W0 m ρ c))) (Proc.devRef .tc main_arg3) = _
  after_results_simp <;> rfl

theorem at3_arg4 : W3 m ρ c (Proc.devRef .tc main_arg4) = (argW2 m c) := by
  show StableHlo.after hostOps0_2 (StableHlo.after hostOps0_1 (StableHlo.after hostOps0 (W0 m ρ c))) (Proc.devRef .tc main_arg4) = _
  after_results_simp <;> rfl

theorem at3_arg5 : W3 m ρ c (Proc.devRef .tc main_arg5) = (argB2 m c) := by
  show StableHlo.after hostOps0_2 (StableHlo.after hostOps0_1 (StableHlo.after hostOps0 (W0 m ρ c))) (Proc.devRef .tc main_arg5) = _
  after_results_simp <;> rfl

/-! ## After the first region: x · W₁ -/

theorem at4_v30 : W4 m ρ c (Proc.devRef .tc main_v30) = (Cert.GcnStages.projected16 (argX m c) (argW1 m c)) :=
  (W4_arr m ρ c 2).trans ((Product16.value (V3 m ρ) c).trans
    ((StageForms.product16_form _ _).trans (congrArg₂ (Cert.GcnStages.projected16 (F := Ideal)) (at3_arg0 m ρ c) (at3_arg2 m ρ c))))

theorem at4_v3 : W4 m ρ c (Proc.devRef .tc main_v3) = Cert.GcnStages.sources (argE m c) :=
  (W4_of_ne m ρ c main_v3 (by decide)).trans (at3_v3 m ρ c)

theorem at4_v6 : W4 m ρ c (Proc.devRef .tc main_v6) = Cert.GcnStages.targets (argE m c) :=
  (W4_of_ne m ρ c main_v6 (by decide)).trans (at3_v6 m ρ c)

theorem at4_v29 : W4 m ρ c (Proc.devRef .tc main_v29) = Cert.GcnStages.edgeWeight (F := Ideal) (argE m c) :=
  (W4_of_ne m ρ c main_v29 (by decide)).trans (at3_v29 m ρ c)

theorem at4_arg3 : W4 m ρ c (Proc.devRef .tc main_arg3) = (argB1 m c) :=
  (W4_of_ne m ρ c main_arg3 (by decide)).trans (at3_arg3 m ρ c)

theorem at4_arg4 : W4 m ρ c (Proc.devRef .tc main_arg4) = (argW2 m c) :=
  (W4_of_ne m ρ c main_arg4 (by decide)).trans (at3_arg4 m ρ c)

theorem at4_arg5 : W4 m ρ c (Proc.devRef .tc main_arg5) = (argB2 m c) :=
  (W4_of_ne m ρ c main_arg5 (by decide)).trans (at3_arg5 m ρ c)

/-! ## After the next stretch: the sources' rows, and the weights read as a column -/

theorem at5_v37 : W5 m ρ c (Proc.devRef .tc main_v37) = Cert.GcnStages.rows16 (Cert.GcnStages.projected16 (argX m c) (argW1 m c)) (argE m c) := by
  show StableHlo.after hostOps1 (W4 m ρ c) (Proc.devRef .tc main_v37) = _
  after_results_simp
  rw [at4_v30 m ρ c, at4_v3 m ρ c]
  rfl

theorem at5_v38 : W5 m ρ c (Proc.devRef .tc main_v38) = shapeCast S3300000x1 (Cert.GcnStages.edgeWeight (F := Ideal) (argE m c)) shapeCasts_S3300000_S3300000x1 := by
  show StableHlo.after hostOps1 (W4 m ρ c) (Proc.devRef .tc main_v38) = _
  after_results_simp
  rw [at4_v29 m ρ c]
  rfl

theorem at5_v3 : W5 m ρ c (Proc.devRef .tc main_v3) = Cert.GcnStages.sources (argE m c) := by
  refine Eq.trans ?_ (at4_v3 m ρ c)
  show StableHlo.after hostOps1 (W4 m ρ c) (Proc.devRef .tc main_v3) = _
  after_results_simp

theorem at5_v6 : W5 m ρ c (Proc.devRef .tc main_v6) = Cert.GcnStages.targets (argE m c) := by
  refine Eq.trans ?_ (at4_v6 m ρ c)
  show StableHlo.after hostOps1 (W4 m ρ c) (Proc.devRef .tc main_v6) = _
  after_results_simp

theorem at5_v29 : W5 m ρ c (Proc.devRef .tc main_v29) = Cert.GcnStages.edgeWeight (F := Ideal) (argE m c) := by
  refine Eq.trans ?_ (at4_v29 m ρ c)
  show StableHlo.after hostOps1 (W4 m ρ c) (Proc.devRef .tc main_v29) = _
  after_results_simp

theorem at5_arg3 : W5 m ρ c (Proc.devRef .tc main_arg3) = (argB1 m c) := by
  refine Eq.trans ?_ (at4_arg3 m ρ c)
  show StableHlo.after hostOps1 (W4 m ρ c) (Proc.devRef .tc main_arg3) = _
  after_results_simp

theorem at5_arg4 : W5 m ρ c (Proc.devRef .tc main_arg4) = (argW2 m c) := by
  refine Eq.trans ?_ (at4_arg4 m ρ c)
  show StableHlo.after hostOps1 (W4 m ρ c) (Proc.devRef .tc main_arg4) = _
  after_results_simp

theorem at5_arg5 : W5 m ρ c (Proc.devRef .tc main_arg5) = (argB2 m c) := by
  refine Eq.trans ?_ (at4_arg5 m ρ c)
  show StableHlo.after hostOps1 (W4 m ρ c) (Proc.devRef .tc main_arg5) = _
  after_results_simp

/-! ## After the second region: the scaled messages -/

theorem at6_v39 : W6 m ρ c (Proc.devRef .tc main_v39) = (Cert.GcnStages.messages16 (Cert.GcnStages.projected16 (argX m c) (argW1 m c)) (argE m c)) :=
  (W6_arr m ρ c 2).trans ((Scale16.value (V5 m ρ) c).trans
    ((congrArg₂ Scale16.whole (at5_v37 m ρ c) (at5_v38 m ρ c)).trans (StageForms.scale16_form _ _)))

theorem at6_v3 : W6 m ρ c (Proc.devRef .tc main_v3) = Cert.GcnStages.sources (argE m c) :=
  (W6_of_ne m ρ c main_v3 (by decide)).trans (at5_v3 m ρ c)

theorem at6_v6 : W6 m ρ c (Proc.devRef .tc main_v6) = Cert.GcnStages.targets (argE m c) :=
  (W6_of_ne m ρ c main_v6 (by decide)).trans (at5_v6 m ρ c)

theorem at6_v29 : W6 m ρ c (Proc.devRef .tc main_v29) = Cert.GcnStages.edgeWeight (F := Ideal) (argE m c) :=
  (W6_of_ne m ρ c main_v29 (by decide)).trans (at5_v29 m ρ c)

theorem at6_arg3 : W6 m ρ c (Proc.devRef .tc main_arg3) = (argB1 m c) :=
  (W6_of_ne m ρ c main_arg3 (by decide)).trans (at5_arg3 m ρ c)

theorem at6_arg4 : W6 m ρ c (Proc.devRef .tc main_arg4) = (argW2 m c) :=
  (W6_of_ne m ρ c main_arg4 (by decide)).trans (at5_arg4 m ρ c)

theorem at6_arg5 : W6 m ρ c (Proc.devRef .tc main_arg5) = (argB2 m c) :=
  (W6_of_ne m ρ c main_arg5 (by decide)).trans (at5_arg5 m ρ c)

/-! ## After the next stretch: the messages summed at their targets -/

theorem at7_v42 : W7 m ρ c (Proc.devRef .tc main_v42) = (Cert.GcnStages.gathered16 (Cert.GcnStages.messages16 (Cert.GcnStages.projected16 (argX m c) (argW1 m c)) (argE m c)) (argE m c)) := by
  show StableHlo.after hostOps2 (W6 m ρ c) (Proc.devRef .tc main_v42) = _
  after_results_simp
  rw [at6_v39 m ρ c, at6_v6 m ρ c]
  rfl

theorem at7_v3 : W7 m ρ c (Proc.devRef .tc main_v3) = Cert.GcnStages.sources (argE m c) := by
  refine Eq.trans ?_ (at6_v3 m ρ c)
  show StableHlo.after hostOps2 (W6 m ρ c) (Proc.devRef .tc main_v3) = _
  after_results_simp

theorem at7_v6 : W7 m ρ c (Proc.devRef .tc main_v6) = Cert.GcnStages.targets (argE m c) := by
  refine Eq.trans ?_ (at6_v6 m ρ c)
  show StableHlo.after hostOps2 (W6 m ρ c) (Proc.devRef .tc main_v6) = _
  after_results_simp

theorem at7_v29 : W7 m ρ c (Proc.devRef .tc main_v29) = Cert.GcnStages.edgeWeight (F := Ideal) (argE m c) := by
  refine Eq.trans ?_ (at6_v29 m ρ c)
  show StableHlo.after hostOps2 (W6 m ρ c) (Proc.devRef .tc main_v29) = _
  after_results_simp

theorem at7_arg3 : W7 m ρ c (Proc.devRef .tc main_arg3) = (argB1 m c) := by
  refine Eq.trans ?_ (at6_arg3 m ρ c)
  show StableHlo.after hostOps2 (W6 m ρ c) (Proc.devRef .tc main_arg3) = _
  after_results_simp

theorem at7_arg4 : W7 m ρ c (Proc.devRef .tc main_arg4) = (argW2 m c) := by
  refine Eq.trans ?_ (at6_arg4 m ρ c)
  show StableHlo.after hostOps2 (W6 m ρ c) (Proc.devRef .tc main_arg4) = _
  after_results_simp

theorem at7_arg5 : W7 m ρ c (Proc.devRef .tc main_arg5) = (argB2 m c) := by
  refine Eq.trans ?_ (at6_arg5 m ρ c)
  show StableHlo.after hostOps2 (W6 m ρ c) (Proc.devRef .tc main_arg5) = _
  after_results_simp

/-! ## After the third region: bias and max(·, 0) -/

theorem at8_v43 : W8 m ρ c (Proc.devRef .tc main_v43) = (Cert.GcnStages.hidden (argX m c) (argE m c) (argW1 m c) (argB1 m c)) :=
  (W8_arr m ρ c 2).trans ((BiasRectify16.value (V7 m ρ) c).trans
    ((congrArg₂ BiasRectify16.whole (at7_v42 m ρ c) (at7_arg3 m ρ c)).trans (StageForms.biasRectify16_form _ _)))

theorem at8_v3 : W8 m ρ c (Proc.devRef .tc main_v3) = Cert.GcnStages.sources (argE m c) :=
  (W8_of_ne m ρ c main_v3 (by decide)).trans (at7_v3 m ρ c)

theorem at8_v6 : W8 m ρ c (Proc.devRef .tc main_v6) = Cert.GcnStages.targets (argE m c) :=
  (W8_of_ne m ρ c main_v6 (by decide)).trans (at7_v6 m ρ c)

theorem at8_v29 : W8 m ρ c (Proc.devRef .tc main_v29) = Cert.GcnStages.edgeWeight (F := Ideal) (argE m c) :=
  (W8_of_ne m ρ c main_v29 (by decide)).trans (at7_v29 m ρ c)

theorem at8_arg4 : W8 m ρ c (Proc.devRef .tc main_arg4) = (argW2 m c) :=
  (W8_of_ne m ρ c main_arg4 (by decide)).trans (at7_arg4 m ρ c)

theorem at8_arg5 : W8 m ρ c (Proc.devRef .tc main_arg5) = (argB2 m c) :=
  (W8_of_ne m ρ c main_arg5 (by decide)).trans (at7_arg5 m ρ c)

/-! ## After the fourth region: the second product -/

theorem at9_v44 : W9 m ρ c (Proc.devRef .tc main_v44) = (Cert.GcnStages.projected1 (Cert.GcnStages.hidden (argX m c) (argE m c) (argW1 m c) (argB1 m c)) (argW2 m c)) :=
  (W9_arr m ρ c 2).trans ((Product1.value (V8 m ρ) c).trans
    ((congrArg₂ Product1.whole (at8_v43 m ρ c) (at8_arg4 m ρ c)).trans (StageForms.product1_form _ _)))

theorem at9_v3 : W9 m ρ c (Proc.devRef .tc main_v3) = Cert.GcnStages.sources (argE m c) :=
  (W9_of_ne m ρ c main_v3 (by decide)).trans (at8_v3 m ρ c)

theorem at9_v6 : W9 m ρ c (Proc.devRef .tc main_v6) = Cert.GcnStages.targets (argE m c) :=
  (W9_of_ne m ρ c main_v6 (by decide)).trans (at8_v6 m ρ c)

theorem at9_v29 : W9 m ρ c (Proc.devRef .tc main_v29) = Cert.GcnStages.edgeWeight (F := Ideal) (argE m c) :=
  (W9_of_ne m ρ c main_v29 (by decide)).trans (at8_v29 m ρ c)

theorem at9_arg5 : W9 m ρ c (Proc.devRef .tc main_arg5) = (argB2 m c) :=
  (W9_of_ne m ρ c main_arg5 (by decide)).trans (at8_arg5 m ρ c)

/-! ## After the next stretch: the sources' entries, and the weights read as a column -/

theorem at10_v51 : W10 m ρ c (Proc.devRef .tc main_v51) = Cert.GcnStages.rows1 (Cert.GcnStages.projected1 (Cert.GcnStages.hidden (argX m c) (argE m c) (argW1 m c) (argB1 m c)) (argW2 m c)) (argE m c) := by
  show StableHlo.after hostOps4 (W9 m ρ c) (Proc.devRef .tc main_v51) = _
  after_results_simp
  rw [at9_v44 m ρ c, at9_v3 m ρ c]
  rfl

theorem at10_v52 : W10 m ρ c (Proc.devRef .tc main_v52) = shapeCast S3300000x1 (Cert.GcnStages.edgeWeight (F := Ideal) (argE m c)) shapeCasts_S3300000_S3300000x1 := by
  show StableHlo.after hostOps4 (W9 m ρ c) (Proc.devRef .tc main_v52) = _
  after_results_simp
  rw [at9_v29 m ρ c]
  rfl

theorem at10_v6 : W10 m ρ c (Proc.devRef .tc main_v6) = Cert.GcnStages.targets (argE m c) := by
  refine Eq.trans ?_ (at9_v6 m ρ c)
  show StableHlo.after hostOps4 (W9 m ρ c) (Proc.devRef .tc main_v6) = _
  after_results_simp

theorem at10_arg5 : W10 m ρ c (Proc.devRef .tc main_arg5) = (argB2 m c) := by
  refine Eq.trans ?_ (at9_arg5 m ρ c)
  show StableHlo.after hostOps4 (W9 m ρ c) (Proc.devRef .tc main_arg5) = _
  after_results_simp

/-! ## After the fifth region: the scaled one-feature messages -/

theorem at11_v53 : W11 m ρ c (Proc.devRef .tc main_v53) = (Cert.GcnStages.messages1 (Cert.GcnStages.projected1 (Cert.GcnStages.hidden (argX m c) (argE m c) (argW1 m c) (argB1 m c)) (argW2 m c)) (argE m c)) :=
  (W11_arr m ρ c 2).trans ((Scale1.value (V10 m ρ) c).trans
    ((congrArg₂ Scale1.whole (at10_v51 m ρ c) (at10_v52 m ρ c)).trans (StageForms.scale1_form _ _)))

theorem at11_v6 : W11 m ρ c (Proc.devRef .tc main_v6) = Cert.GcnStages.targets (argE m c) :=
  (W11_of_ne m ρ c main_v6 (by decide)).trans (at10_v6 m ρ c)

theorem at11_arg5 : W11 m ρ c (Proc.devRef .tc main_arg5) = (argB2 m c) :=
  (W11_of_ne m ρ c main_arg5 (by decide)).trans (at10_arg5 m ρ c)

/-! ## After the next stretch: the one-feature messages summed at their targets -/

theorem at12_v56 : W12 m ρ c (Proc.devRef .tc main_v56) = (Cert.GcnStages.gathered1 (Cert.GcnStages.messages1 (Cert.GcnStages.projected1 (Cert.GcnStages.hidden (argX m c) (argE m c) (argW1 m c) (argB1 m c)) (argW2 m c)) (argE m c)) (argE m c)) := by
  show StableHlo.after hostOps5 (W11 m ρ c) (Proc.devRef .tc main_v56) = _
  after_results_simp
  rw [at11_v53 m ρ c, at11_v6 m ρ c]
  rfl

theorem at12_arg5 : W12 m ρ c (Proc.devRef .tc main_arg5) = (argB2 m c) := by
  refine Eq.trans ?_ (at11_arg5 m ρ c)
  show StableHlo.after hostOps5 (W11 m ρ c) (Proc.devRef .tc main_arg5) = _
  after_results_simp

/-! ## After the sixth region: the bias -/

theorem at13_v57 : W13 m ρ c (Proc.devRef .tc main_v57) = (Cert.GcnStages.outputColumn (argX m c) (argE m c) (argW1 m c) (argB1 m c) (argW2 m c) (argB2 m c)) :=
  (W13_arr m ρ c 2).trans ((Bias1.value (V12 m ρ) c).trans
    ((congrArg₂ Bias1.whole (at12_v56 m ρ c) (at12_arg5 m ρ c)).trans (StageForms.bias1_form _ _)))

/-! ## At the return: the output read as a vector -/

/-- The result buffer of the idealized kernel holds the graph convolution's output of the arguments as launched. -/
theorem result : W14 m ρ c (Proc.devRef .tc main_v58) = Cert.GcnStages.output (argX m c) (argE m c) (argW1 m c) (argB1 m c) (argW2 m c) (argB2 m c) := by
  show StableHlo.after hostOps6 (W13 m ρ c) (Proc.devRef .tc main_v58) = _
  after_results_simp
  rw [at13_v57 m ρ c]
  rfl

end Cert.KernelIdeal.Boundaries

end
-- ==== Proof.lean ====
/-
  The two-layer graph convolution kernel against its reference: the proof of `Cert.Claim`.

  Both programs compute, from node features x, an edge table and two layers' matrices and biases, the same function:
  degrees from the edge targets (with a self loop per node), edge weights 1/sqrt(deg source) · 1/sqrt(deg target), and per
  layer "project, send each source's row along every edge scaled by the edge's weight, sum at the targets, add the bias",
  with max(·, 0) after the first layer. The kernel performs the two projections, the two scalings and the two bias steps
  in six blocked regions and everything else by the host operations the reference also uses; the reference does all of
  it by host operations. On extended reals a blocked product, scaling or bias step is the whole-array one, so the two
  results are the same stages of the same arguments; no step needs the inputs to be finite.

  The three frames: the two kernel programs' are their generated frame certificates, the reference's is its run with the
  result dropped. The idealized kernel is the printed kernel read at extended reals (no rewrite was applied), so that
  claim is trivial.
-/
import proofs.«167111_j28578712387811_2_alg».proof.Defs
import proofs.«167111_j28578712387811_2_alg».proof.Proof.Gen.Kernel
import proofs.«167111_j28578712387811_2_alg».proof.Proof.Gen.Kernel.Skeleton
import proofs.«167111_j28578712387811_2_alg».proof.Proof.Gen.Kernel.Launch
import proofs.«167111_j28578712387811_2_alg».proof.Proof.Gen.Kernel.Points
import proofs.«167111_j28578712387811_2_alg».proof.Proof.Gen.Kernel.Frame
import proofs.«167111_j28578712387811_2_alg».proof.Proof.Gen.KernelIdeal
import proofs.«167111_j28578712387811_2_alg».proof.Proof.Gen.KernelIdeal.Skeleton
import proofs.«167111_j28578712387811_2_alg».proof.Proof.Gen.KernelIdeal.Launch
import proofs.«167111_j28578712387811_2_alg».proof.Proof.Gen.KernelIdeal.Points
import proofs.«167111_j28578712387811_2_alg».proof.Proof.Gen.KernelIdeal.Frame
import proofs.«167111_j28578712387811_2_alg».proof.Proof.Gen.ReferenceIdeal
import proofs.«167111_j28578712387811_2_alg».proof.Proof.Gen.Pre_finite_inputs
import Idealize.ShloMosaic.Adequacy
import Idealize.ShloMosaic.Init

import proofs.«167111_j28578712387811_2_alg».proof.Proof.RefRun
import proofs.«167111_j28578712387811_2_alg».proof.Proof.RefValue
import proofs.«167111_j28578712387811_2_alg».proof.Proof.WholeRun
import proofs.«167111_j28578712387811_2_alg».proof.Proof.Boundaries

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.ValueP.run (F := Ideal) m ρ)

/-- From memories that agree on the arguments both programs end with the graph convolution's output of those arguments:
    the kernel by its boundary-by-boundary values, the reference by its composed term. -/
theorem algebraic : Cert.algebraic_KernelIdeal_ReferenceIdeal := by
  intro m ρ m' ρ' _ hagree
  refine ⟨fun c => Cert.GcnStages.output (F := Ideal)
      (Cert.KernelIdeal.Boundaries.argX m c) (Cert.KernelIdeal.Boundaries.argE m c) (Cert.KernelIdeal.Boundaries.argW1 m c)
      (Cert.KernelIdeal.Boundaries.argB1 m c) (Cert.KernelIdeal.Boundaries.argW2 m c) (Cert.KernelIdeal.Boundaries.argB2 m c), ?_, ?_⟩
  · exact (θ_run Cert.KernelIdeal.defs _ _).mono
      (fun r h c => ⟨(h c).1.trans (Cert.KernelIdeal.Boundaries.result m ρ c), (h c).2⟩)
      (Cert.KernelIdeal.WholeRun.run_result (F := Ideal) m ρ)
  · refine (θ_run Cert.ReferenceIdeal.defs _ _).mono (fun r h c => ⟨(h c).1.trans ?_, (h c).2⟩)
      (Cert.ReferenceIdeal.ValueP.run (F := Ideal) m' ρ')
    rw [Cert.ReferenceIdeal.RefValue.result, (hagree c).1, (hagree c).2.1, (hagree c).2.2.1, (hagree c).2.2.2.1,
      (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
